-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x3 : Shape := ⟨2, ![8192, 3]⟩
abbrev S8192 : Shape := ⟨1, ![8192]⟩
abbrev S4x1024x1024 : Shape := ⟨3, ![4, 1024, 1024]⟩
abbrev S4x1024x16 : Shape := ⟨3, ![4, 1024, 16]⟩
abbrev S4x16x1024 : Shape := ⟨3, ![4, 16, 1024]⟩
abbrev S4x1024 : Shape := ⟨2, ![4, 1024]⟩
abbrev S4x4 : Shape := ⟨2, ![4, 4]⟩
abbrev S4 : Shape := ⟨1, ![4]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_
  bcast_S_S8192 : S_.BroadcastsInDim S8192 (![] : Fin 0 → Fin S8192.rank)
  reducesTo_S8192_S_d0 : S8192.ReducesTo [0] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024x16 : S_.BroadcastsInDim S4x1024x16 (![] : Fin 0 → Fin S4x1024x16.rank)
  reducesTo_S4x1024x16_S_d0_1_2 : S4x1024x16.ReducesTo [0, 1, 2] S_
  bcast_S_S4x16x1024 : S_.BroadcastsInDim S4x16x1024 (![] : Fin 0 → Fin S4x16x1024.rank)
  reducesTo_S4x16x1024_S_d0_1_2 : S4x16x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S4x4 .f32) (main_arg8 : FVec F S4 .f32) (main_v33 : IVec S_ 1) : IVec S_ 1 :=
  let main_v34 : FVec F S4x4 .f32 := Host.absf main_arg7
  let main_cst_12 : FVec F S_ .f32 := constant S_ .f32 0x7F800000#32
  let main_v35 : FVec F S4x4 .f32 := broadcastInDim S4x4 ![] bcast_S_S4x4 main_cst_12
  let main_v36 : IVec S4x4 1 := cmpf .olt main_v34 main_v35
  let main_c_13 : IVec S_ 1 := constantI S_ 1 1#1
  let main_v37 : IVec S_ 1 := (fun x v => Host.reduce IntOp.andi x v reducesTo_S4x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg4 : FVec F S4x1024x16 .f32) (main_arg5 : FVec F S4x16x1024 .f32) (main_arg6 : FVec F S4x1024 .f32) (main_arg7 : FVec F S4x4 .f32) (main_arg8 : FVec F S4 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x16 .f32 := Host.absf main_arg4
  let main_cst_6 : FVec F S_ .f32 := constant S_ .f32 0x7F800000#32
  let main_v20 : FVec F S4x1024x16 .f32 := broadcastInDim S4x1024x16 ![] bcast_S_S4x1024x16 main_cst_6
  let main_v21 : IVec S4x1024x16 1 := cmpf .olt main_v19 main_v20
  let main_c_7 : IVec S_ 1 := constantI S_ 1 1#1
  let main_v22 : IVec S_ 1 := (fun x v => Host.reduce IntOp.andi x v reducesTo_S4x1024x16_S_d0_1_2 h_S_) main_v21 main_c_7
  let main_v23 : IVec S_ 1 := andi main_v18 main_v22
  let main_v24 : FVec F S4x16x1024 .f32 := Host.absf main_arg5
  let main_cst_8 : FVec F S_ .f32 := constant S_ .f32 0x7F800000#32
  let main_v25 : FVec F S4x16x1024 .f32 := broadcastInDim S4x16x1024 ![] bcast_S_S4x16x1024 main_cst_8
  let main_v26 : IVec S4x16x1024 1 := cmpf .olt main_v24 main_v25
  let main_c_9 : IVec S_ 1 := constantI S_ 1 1#1
  let main_v27 : IVec S_ 1 := (fun x v => Host.reduce IntOp.andi x v reducesTo_S4x16x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x3 .f32) (main_arg2 : FVec F S8192 .f32) (main_arg3 : FVec F S4x1024x1024 .f32) (main_arg4 : FVec F S4x1024x16 .f32) (main_arg5 : FVec F S4x16x1024 .f32) (main_arg6 : FVec F S4x1024 .f32) (main_arg7 : FVec F S4x4 .f32) (main_arg8 : FVec F S4 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S8192x3 : Shape := ⟨2, ![8192, 3]⟩
abbrev S8192 : Shape := ⟨1, ![8192]⟩
abbrev S4x1024x1024 : Shape := ⟨3, ![4, 1024, 1024]⟩
abbrev S4x1024x16 : Shape := ⟨3, ![4, 1024, 16]⟩
abbrev S4x16x1024 : Shape := ⟨3, ![4, 16, 1024]⟩
abbrev S4x1024 : Shape := ⟨2, ![4, 1024]⟩
abbrev S4x4 : Shape := ⟨2, ![4, 4]⟩
abbrev S4 : Shape := ⟨1, ![4]⟩
abbrev S8192x1 : Shape := ⟨2, ![8192, 1]⟩
abbrev S8192x4 : Shape := ⟨2, ![8192, 4]⟩
abbrev S1x4 : Shape := ⟨2, ![1, 4]⟩
abbrev S1024x1024 : Shape := ⟨2, ![1024, 1024]⟩
abbrev S1024x4 : Shape := ⟨2, ![1024, 4]⟩
abbrev S1024x1 : Shape := ⟨2, ![1024, 1]⟩
abbrev S1x1024x1024 : Shape := ⟨3, ![1, 1024, 1024]⟩
abbrev S1x1024x16 : Shape := ⟨3, ![1, 1024, 16]⟩
abbrev S1024x16 : Shape := ⟨2, ![1024, 16]⟩
abbrev S1x16x1024 : Shape := ⟨3, ![1, 16, 1024]⟩
abbrev S16x1024 : Shape := ⟨2, ![16, 1024]⟩
abbrev S1x1024 : Shape := ⟨2, ![1, 1024]⟩
abbrev S1024 : Shape := ⟨1, ![1024]⟩

abbrev nBuf : Space → Nat
  | .hbm => 26
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x3, .f32⟩
  | .hbm, ⟨2, _⟩ => ⟨S8192, .f32⟩
  | .hbm, ⟨3, _⟩ => ⟨S4x1024x1024, .f32⟩
  | .hbm, ⟨4, _⟩ => ⟨S4x1024x16, .f32⟩
  | .hbm, ⟨5, _⟩ => ⟨S4x16x1024, .f32⟩
  | .hbm, ⟨6, _⟩ => ⟨S4x1024, .f32⟩
  | .hbm, ⟨7, _⟩ => ⟨S4x4, .f32⟩
  | .hbm, ⟨8, _⟩ => ⟨S4, .f32⟩
  | .hbm, ⟨9, _⟩ => ⟨S8192x1, .f32⟩
  | .hbm, ⟨10, _⟩ => ⟨S8192x4, .f32⟩
  | .hbm, ⟨11, _⟩ => ⟨S4x4, .f32⟩
  | .hbm, ⟨12, _⟩ => ⟨S8192x4, .f32⟩
  | .hbm, ⟨13, _⟩ => ⟨S1x4, .f32⟩
  | .hbm, ⟨14, _⟩ => ⟨S8192x4, .f32⟩
  | .hbm, ⟨15, _⟩ => ⟨S8192x4, .f32⟩
  | .hbm, ⟨16, _⟩ => ⟨S4x1024x1024, .f32⟩
  | .hbm, ⟨17, _⟩ => ⟨S4x1024x1024, .bf16⟩
  | .hbm, ⟨18, _⟩ => ⟨S4x1024x1024, .f32⟩
  | .hbm, ⟨19, _⟩ => ⟨S4x1024x1024, .f32⟩
  | .hbm, ⟨20, _⟩ => ⟨S4x1024x1024, .bf16⟩
  | .hbm, ⟨21, _⟩ => ⟨S4x1024x16, .f32⟩
  | .hbm, ⟨22, _⟩ => ⟨S4x1024x16, .bf16⟩
  | .hbm, ⟨23, _⟩ => ⟨S4x16x1024, .f32⟩
  | .hbm, ⟨24, _⟩ => ⟨S4x16x1024, .bf16⟩
  | .hbm, ⟨25, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x4, .f32⟩
  | .local _ .vmem, ⟨3, _⟩ => ⟨S1024x4, .f32⟩
  | .local _ .vmem, ⟨4, _⟩ => ⟨S4x1024x1024, .bf16⟩
  | .local _ .vmem, ⟨5, _⟩ => ⟨S4x1024x1024, .bf16⟩
  | .local _ .vmem, ⟨6, _⟩ => ⟨S4x1024x16, .bf16⟩
  | .local _ .vmem, ⟨7, _⟩ => ⟨S4x16x1024, .bf16⟩
  | .local _ .vmem, ⟨8, _⟩ => ⟨S4x1024, .f32⟩
  | .local _ .vmem, ⟨9, _⟩ => ⟨S1024x1024, .f32⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S8192_S8192x1_0 : S8192.BroadcastsInDim S8192x1 (![0] : Fin 1 → Fin S8192x1.rank)
  concatenates_S8192x3_S8192x1_S8192x4_d1 : Shape.Concatenates [S8192x3, S8192x1] S8192x4 1
  transposes_S4x4_S4x4_1_0 : S4x4.Transposes [1, 0] S4x4
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  transposes_S4x1024x1024_S4x1024x1024_0_2_1 : S4x1024x1024.Transposes [0, 2, 1] S4x1024x1024
  bitsLt_bf16_f32 : FTy.bits .bf16 < FTy.bits .f32
  transposes_S4x16x1024_S4x1024x16_0_2_1 : S4x16x1024.Transposes [0, 2, 1] S4x1024x16
  transposes_S4x1024x16_S4x16x1024_0_2_1 : S4x1024x16.Transposes [0, 2, 1] S4x16x1024
  inb_S1024x1024_S1024x1024_0_0 : ∀ a, (![0, 0] : Fin 2 → Nat) a + S1024x1024.size a ≤ S1024x1024.size a
  h_S1024x1024 : 0 < S1024x1024.numel
  inb_S1024x4_S1024x1_0_0 : ∀ a, (![0, 0] : Fin 2 → Nat) a + S1024x1.size a ≤ S1024x4.size a
  h_S1024x1 : 0 < S1024x1.numel
  shapeCasts_S1024x1_S1024x1 : S1024x1.ShapeCasts S1024x1
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024x16_S1x1024x16_0_0_0 : ∀ a, (![0, 0, 0] : Fin 3 → Nat) a + S1x1024x16.size a ≤ S4x1024x16.size a
  h_S1x1024x16 : 0 < S1x1024x16.numel
  shapeCasts_S1x1024x16_S1024x16 : S1x1024x16.ShapeCasts S1024x16
  inb_S4x16x1024_S1x16x1024_0_0_0 : ∀ a, (![0, 0, 0] : Fin 3 → Nat) a + S1x16x1024.size a ≤ S4x16x1024.size a
  h_S1x16x1024 : 0 < S1x16x1024.numel
  shapeCasts_S1x16x1024_S16x1024 : S1x16x1024.ShapeCasts S16x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  broadcasts_S1024x1_S1024x16 : S1024x1.Broadcasts S1024x16
  shapeCasts_S1024_S1x1024 : S1024.ShapeCasts S1x1024
  broadcasts_S1x1024_S1024x1024 : S1x1024.Broadcasts S1024x1024
  inb_S1024x4_S1024x1_0_1 : ∀ a, (![0, 1] : Fin 2 → Nat) a + S1024x1.size a ≤ S1024x4.size a
  inb_S4x1024x1024_S1x1024x1024_1_0_0 : ∀ a, (![1, 0, 0] : Fin 3 → Nat) a + S1x1024x1024.size a ≤ S4x1024x1024.size a
  inb_S4x1024x16_S1x1024x16_1_0_0 : ∀ a, (![1, 0, 0] : Fin 3 → Nat) a + S1x1024x16.size a ≤ S4x1024x16.size a
  inb_S4x16x1024_S1x16x1024_1_0_0 : ∀ a, (![1, 0, 0] : Fin 3 → Nat) a + S1x16x1024.size a ≤ S4x16x1024.size a
  inb_S4x1024_S1x1024_1_0 : ∀ a, (![1, 0] : Fin 2 → Nat) a + S1x1024.size a ≤ S4x1024.size a
  inb_S1024x4_S1024x1_0_2 : ∀ a, (![0, 2] : Fin 2 → Nat) a + S1024x1.size a ≤ S1024x4.size a
  inb_S4x1024x1024_S1x1024x1024_2_0_0 : ∀ a, (![2, 0, 0] : Fin 3 → Nat) a + S1x1024x1024.size a ≤ S4x1024x1024.size a
  inb_S4x1024x16_S1x1024x16_2_0_0 : ∀ a, (![2, 0, 0] : Fin 3 → Nat) a + S1x1024x16.size a ≤ S4x1024x16.size a
  inb_S4x16x1024_S1x16x1024_2_0_0 : ∀ a, (![2, 0, 0] : Fin 3 → Nat) a + S1x16x1024.size a ≤ S4x16x1024.size a
  inb_S4x1024_S1x1024_2_0 : ∀ a, (![2, 0] : Fin 2 → Nat) a + S1x1024.size a ≤ S4x1024.size a
  inb_S1024x4_S1024x1_0_3 : ∀ a, (![0, 3] : Fin 2 → Nat) a + S1024x1.size a ≤ S1024x4.size a
  inb_S4x1024x1024_S1x1024x1024_3_0_0 : ∀ a, (![3, 0, 0] : Fin 3 → Nat) a + S1x1024x1024.size a ≤ S4x1024x1024.size a
  inb_S4x1024x16_S1x1024x16_3_0_0 : ∀ a, (![3, 0, 0] : Fin 3 → Nat) a + S1x1024x16.size a ≤ S4x1024x16.size a
  inb_S4x16x1024_S1x16x1024_3_0_0 : ∀ a, (![3, 0, 0] : Fin 3 → Nat) a + S1x16x1024.size a ≤ S4x16x1024.size a
  inb_S4x1024_S1x1024_3_0 : ∀ a, (![3, 0] : Fin 2 → Nat) a + S1x1024.size a ≤ S4x1024.size a
  dot_S8192x4_S4x4_S8192x4_1_0_0_1_n_n_wf : DotDims.WF S8192x4 S4x4 S8192x4 [1] [0] [0] [1] [] []
  dot_S1024x1024_S1024x1024_S1024x1024_1_0_0_1_n_n_wf : DotDims.WF S1024x1024 S1024x1024 S1024x1024 [1] [0] [0] [1] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4.size a ≤ S8192x4.size a
  hwx0_1 : ∀ i : grid0.Coords, EltTy.bits .f32 = 32 ∨ (Rect.block (s := S8192x4) S1024x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024x1024.size a ≤ S4x1024x1024.size a
  hwx0_2 : ∀ i : grid0.Coords, EltTy.bits .bf16 = 32 ∨ (Rect.block (s := S4x1024x1024) S4x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x16.size a ≤ S4x1024x16.size a
  hwx0_4 : ∀ i : grid0.Coords, EltTy.bits .bf16 = 32 ∨ (Rect.block (s := S4x1024x16) S4x1024x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x16x1024.size a ≤ S4x16x1024.size a
  hwx0_5 : ∀ i : grid0.Coords, EltTy.bits .bf16 = 32 ∨ (Rect.block (s := S4x16x1024) S4x16x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x1024.size a
  hwx0_7 : ∀ i : grid0.Coords, EltTy.bits .f32 = 32 ∨ (Rect.block (s := S8192x1024) S1024x1024.size (cc0_transform_7 i) (hinb0_7 i)).WholeWords (EltTy.packing .f32)

variable [Facts₀]

def dot_S8192x4_S4x4_S8192x4_1_0_0_1_n_n : DotDims S8192x4 S4x4 S8192x4 where
  lhsContracting := [1]
  rhsContracting := [0]
  lhsNonContracting := [0]
  rhsNonContracting := [1]
  lhsBatch := []
  rhsBatch := []
  wf := dot_S8192x4_S4x4_S8192x4_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S4x1024x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S4x16x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x3 : Shape := ⟨2, ![8192, 3]⟩
abbrev S8192 : Shape := ⟨1, ![8192]⟩
abbrev S4x1024x1024 : Shape := ⟨3, ![4, 1024, 1024]⟩
abbrev S4x1024x16 : Shape := ⟨3, ![4, 1024, 16]⟩
abbrev S4x16x1024 : Shape := ⟨3, ![4, 16, 1024]⟩
abbrev S4x1024 : Shape := ⟨2, ![4, 1024]⟩
abbrev S4x4 : Shape := ⟨2, ![4, 4]⟩
abbrev S4 : Shape := ⟨1, ![4]⟩
abbrev S8192x1 : Shape := ⟨2, ![8192, 1]⟩
abbrev S8192x4 : Shape := ⟨2, ![8192, 4]⟩
abbrev S1x4 : Shape := ⟨2, ![1, 4]⟩
abbrev S1x16x1024 : Shape := ⟨3, ![1, 16, 1024]⟩
abbrev S16x1024 : Shape := ⟨2, ![16, 1024]⟩
abbrev S1024x16 : Shape := ⟨2, ![1024, 16]⟩
abbrev S8192x16 : Shape := ⟨2, ![8192, 16]⟩
abbrev S1x1024x16 : Shape := ⟨3, ![1, 1024, 16]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3, .f32⟩
  | .hbm, ⟨2, _⟩ => ⟨S8192, .f32⟩
  | .hbm, ⟨3, _⟩ => ⟨S4x1024x1024, .f32⟩
  | .hbm, ⟨4, _⟩ => ⟨S4x1024x16, .f32⟩
  | .hbm, ⟨5, _⟩ => ⟨S4x16x1024, .f32⟩
  | .hbm, ⟨6, _⟩ => ⟨S4x1024, .f32⟩
  | .hbm, ⟨7, _⟩ => ⟨S4x4, .f32⟩
  | .hbm, ⟨8, _⟩ => ⟨S4, .f32⟩
  | .hbm, ⟨9, _⟩ => ⟨S8192x1, .f32⟩
  | .hbm, ⟨10, _⟩ => ⟨S8192x4, .f32⟩
  | .hbm, ⟨11, _⟩ => ⟨S4x4, .f32⟩
  | .hbm, ⟨12, _⟩ => ⟨S8192x4, .f32⟩
  | .hbm, ⟨13, _⟩ => ⟨S1x4, .f32⟩
  | .hbm, ⟨14, _⟩ => ⟨S8192x4, .f32⟩
  | .hbm, ⟨15, _⟩ => ⟨S8192x4, .f32⟩
  | .hbm, ⟨16, _⟩ => ⟨S8192x1, .f32⟩
  | .hbm, ⟨17, _⟩ => ⟨S1x16x1024, .f32⟩
  | .hbm, ⟨18, _⟩ => ⟨S16x1024, .f32⟩
  | .hbm, ⟨19, _⟩ => ⟨S1024x16, .f32⟩
  | .hbm, ⟨20, _⟩ => ⟨S8192x16, .f32⟩
  | .hbm, ⟨21, _⟩ => ⟨S1x1024x16, .f32⟩
  | .hbm, ⟨22, _⟩ => ⟨S1024x16, .f32⟩
  | .hbm, ⟨23, _⟩ => ⟨S16x1024, .f32⟩
  | .hbm, ⟨24, _⟩ => ⟨S8192x1024, .f32⟩
  | .hbm, ⟨25, _⟩ => ⟨S1x1024x1024, .f32⟩
  | .hbm, ⟨26, _⟩ => ⟨S1024x1024, .f32⟩
  | .hbm, ⟨27, _⟩ => ⟨S1024x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S1x16x1024, .f32⟩
  | .hbm, ⟨39, _⟩ => ⟨S16x1024, .f32⟩
  | .hbm, ⟨40, _⟩ => ⟨S1024x16, .f32⟩
  | .hbm, ⟨41, _⟩ => ⟨S8192x16, .f32⟩
  | .hbm, ⟨42, _⟩ => ⟨S1x1024x16, .f32⟩
  | .hbm, ⟨43, _⟩ => ⟨S1024x16, .f32⟩
  | .hbm, ⟨44, _⟩ => ⟨S16x1024, .f32⟩
  | .hbm, ⟨45, _⟩ => ⟨S8192x1024, .f32⟩
  | .hbm, ⟨46, _⟩ => ⟨S1x1024x1024, .f32⟩
  | .hbm, ⟨47, _⟩ => ⟨S1024x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S1x16x1024, .f32⟩
  | .hbm, ⟨60, _⟩ => ⟨S16x1024, .f32⟩
  | .hbm, ⟨61, _⟩ => ⟨S1024x16, .f32⟩
  | .hbm, ⟨62, _⟩ => ⟨S8192x16, .f32⟩
  | .hbm, ⟨63, _⟩ => ⟨S1x1024x16, .f32⟩
  | .hbm, ⟨64, _⟩ => ⟨S1024x16, .f32⟩
  | .hbm, ⟨65, _⟩ => ⟨S16x1024, .f32⟩
  | .hbm, ⟨66, _⟩ => ⟨S8192x1024, .f32⟩
  | .hbm, ⟨67, _⟩ => ⟨S1x1024x1024, .f32⟩
  | .hbm, ⟨68, _⟩ => ⟨S1024x1024, .f32⟩
  | .hbm, ⟨69, _⟩ => ⟨S1024x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S1x16x1024, .f32⟩
  | .hbm, ⟨81, _⟩ => ⟨S16x1024, .f32⟩
  | .hbm, ⟨82, _⟩ => ⟨S1024x16, .f32⟩
  | .hbm, ⟨83, _⟩ => ⟨S8192x16, .f32⟩
  | .hbm, ⟨84, _⟩ => ⟨S1x1024x16, .f32⟩
  | .hbm, ⟨85, _⟩ => ⟨S1024x16, .f32⟩
  | .hbm, ⟨86, _⟩ => ⟨S16x1024, .f32⟩
  | .hbm, ⟨87, _⟩ => ⟨S8192x1024, .f32⟩
  | .hbm, ⟨88, _⟩ => ⟨S1x1024x1024, .f32⟩
  | .hbm, ⟨89, _⟩ => ⟨S1024x1024, .f32⟩
  | .hbm, ⟨90, _⟩ => ⟨S1024x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S1024, .f32⟩
  | .hbm, ⟨97, _⟩ => ⟨S1x1024, .f32⟩
  | .hbm, ⟨98, _⟩ => ⟨S8192x1024, .f32⟩
  | .hbm, ⟨99, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  concatenates_S8192x3_S8192x1_S8192x4_d1 : Shape.Concatenates [S8192x3, S8192x1] S8192x4 1
  transposes_S4x4_S4x4_1_0 : S4x4.Transposes [1, 0] S4x4
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  slices_S8192x4_S8192x1_0_0 : S8192x4.Slices ![0, 0] S8192x1
  slices_S4x16x1024_S1x16x1024_0_0_0 : S4x16x1024.Slices ![0, 0, 0] S1x16x1024
  shapeCasts_S1x16x1024_S16x1024 : S1x16x1024.ShapeCasts S16x1024
  transposes_S16x1024_S1024x16_1_0 : S16x1024.Transposes [1, 0] S1024x16
  slices_S4x1024x16_S1x1024x16_0_0_0 : S4x1024x16.Slices ![0, 0, 0] S1x1024x16
  shapeCasts_S1x1024x16_S1024x16 : S1x1024x16.ShapeCasts S1024x16
  transposes_S1024x16_S16x1024_1_0 : S1024x16.Transposes [1, 0] S16x1024
  slices_S4x1024x1024_S1x1024x1024_0_0_0 : S4x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  bcast_S8192x1_S8192x1024_0_1 : S8192x1.BroadcastsInDim S8192x1024 (![0, 1] : Fin 2 → Fin S8192x1024.rank)
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S8192x4_S8192x1_0_1 : S8192x4.Slices ![0, 1] S8192x1
  slices_S4x16x1024_S1x16x1024_1_0_0 : S4x16x1024.Slices ![1, 0, 0] S1x16x1024
  slices_S4x1024x16_S1x1024x16_1_0_0 : S4x1024x16.Slices ![1, 0, 0] S1x1024x16
  slices_S4x1024x1024_S1x1024x1024_1_0_0 : S4x1024x1024.Slices ![1, 0, 0] S1x1024x1024
  slices_S4x1024_S1x1024_1_0 : S4x1024.Slices ![1, 0] S1x1024
  slices_S8192x4_S8192x1_0_2 : S8192x4.Slices ![0, 2] S8192x1
  slices_S4x16x1024_S1x16x1024_2_0_0 : S4x16x1024.Slices ![2, 0, 0] S1x16x1024
  slices_S4x1024x16_S1x1024x16_2_0_0 : S4x1024x16.Slices ![2, 0, 0] S1x1024x16
  slices_S4x1024x1024_S1x1024x1024_2_0_0 : S4x1024x1024.Slices ![2, 0, 0] S1x1024x1024
  slices_S4x1024_S1x1024_2_0 : S4x1024.Slices ![2, 0] S1x1024
  slices_S8192x4_S8192x1_0_3 : S8192x4.Slices ![0, 3] S8192x1
  slices_S4x16x1024_S1x16x1024_3_0_0 : S4x16x1024.Slices ![3, 0, 0] S1x16x1024
  slices_S4x1024x16_S1x1024x16_3_0_0 : S4x1024x16.Slices ![3, 0, 0] S1x1024x16
  slices_S4x1024x1024_S1x1024x1024_3_0_0 : S4x1024x1024.Slices ![3, 0, 0] S1x1024x1024
  slices_S4x1024_S1x1024_3_0 : S4x1024.Slices ![3, 0] S1x1024
  dot_S8192x4_S4x4_S8192x4_1_0_0_1_n_n_wf : DotDims.WF S8192x4 S4x4 S8192x4 [1] [0] [0] [1] [] []
  dot_S8192x1024_S1024x16_S8192x16_1_0_0_1_n_n_wf : DotDims.WF S8192x1024 S1024x16 S8192x16 [1] [0] [0] [1] [] []
  dot_S8192x16_S16x1024_S8192x1024_1_0_0_1_n_n_wf : DotDims.WF S8192x16 S16x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x4_S4x4_S8192x4_1_0_0_1_n_n : DotDims S8192x4 S4x4 S8192x4 where
  lhsContracting := [1]
  rhsContracting := [0]
  lhsNonContracting := [0]
  rhsNonContracting := [1]
  lhsBatch := []
  rhsBatch := []
  wf := dot_S8192x4_S4x4_S8192x4_1_0_0_1_n_n_wf
def dot_S8192x1024_S1024x16_S8192x16_1_0_0_1_n_n : DotDims S8192x1024 S1024x16 S8192x16 where
  lhsContracting := [1]
  rhsContracting := [0]
  lhsNonContracting := [0]
  rhsNonContracting := [1]
  lhsBatch := []
  rhsBatch := []
  wf := dot_S8192x1024_S1024x16_S8192x16_1_0_0_1_n_n_wf
def dot_S8192x16_S16x1024_S8192x1024_1_0_0_1_n_n : DotDims S8192x16 S16x1024 S8192x1024 where
  lhsContracting := [1]
  rhsContracting := [0]
  lhsNonContracting := [0]
  rhsNonContracting := [1]
  lhsBatch := []
  rhsBatch := []
  wf := dot_S8192x16_S16x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LayerAlgebra.lean ====
/-
  One layer of the chain at one output entry, as arithmetic.

  A layer maps a row x (indexed by k) to, at output column n,
      Σₖ x k · w k  +  a · Σᵣ (Σₖ x k · B r k) · A r  +  b,
  where w is row n of the dense weight, B the down-projection, A column n of the up-projection, a the row's
  modulation scalar and b the bias entry. Two programs arrange this differently:

  * the reference computes exactly the expression above;
  * the kernel splits the dense product into three products, x·w + x·(w − w) + (x − x)·w (the two extra ones are the
    residuals of a two-term splitting, which vanish when no rounding happens), and multiplies by a INSIDE the sum over r.

  Over the reals the two agree: the residual products are sums of zeros, and a factor moves across a finite sum. Over
  the extended reals they agree whenever every input is a real number, because then both are the coercion of the real
  expression; with an infinite input neither x − x = 0 nor distributivity survives. This file proves both
  coercion statements, and that a finite sum of products of reals is a real.
-/
import Idealize.ShloMosaic.PureOps.Ideal

noncomputable section

namespace Cert.LoraChain

/-- An extended real that is a real number. -/
def IsR (x : EReal) : Prop := ∃ r : ℝ, x = (r : EReal)

theorem isR_coe (r : ℝ) : IsR (r : EReal) := ⟨r, rfl⟩

theorem isR_zero : IsR 0 := ⟨0, rfl⟩

/-- A real extended real is the coercion of its real part. -/
theorem IsR.coe_toReal {x : EReal} (h : IsR x) : x = ((x.toReal : ℝ) : EReal) := by
  obtain ⟨r, rfl⟩ := h
  rw [EReal.toReal_coe]

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

/-- A finite sum of reals is a real. -/
theorem IsR.sum {ι : Type*} (s : Finset ι) (f : ι → EReal) (h : ∀ i ∈ s, IsR (f i)) : IsR (∑ i ∈ s, f i) :=
  Finset.sum_induction f IsR (fun _ _ => IsR.add) isR_zero h

/-- A finite sum of reals, read in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

section Entry

variable {K R : Type*} [Fintype K] [Fintype R]

/-- One layer at one output entry, over the reals. -/
def stepR (x : K → ℝ) (a : ℝ) (w : K → ℝ) (B : R → K → ℝ) (A : R → ℝ) (b : ℝ) : ℝ :=
  ((∑ k, x k * w k) + a * (∑ r, (∑ k, x k * B r k) * A r)) + b

/-- The reference's arrangement, over the extended reals. -/
def refEntry (x : K → EReal) (a : EReal) (w : K → EReal) (B : R → K → EReal) (A : R → EReal) (b : EReal) : EReal :=
  ((∑ k, x k * w k) + a * (∑ r, (∑ k, x k * B r k) * A r)) + b

/-- The kernel's arrangement, over the extended reals: the dense product in three pieces (weights wh and wl, row x
    and its residual x − x), the modulation scalar inside the sum over r. -/
def kerEntry (x : K → EReal) (a : EReal) (wh wl : K → EReal) (B : R → K → EReal) (A : R → EReal) (b : EReal) : EReal :=
  ((((∑ k, x k * wh k) + (∑ k, x k * wl k)) + (∑ k, (x k - x k) * wh k)) + (∑ r, (a * ∑ k, x k * B r k) * A r)) + b

/-- On real inputs the reference's arrangement is the real expression. -/
theorem refEntry_coe (x : K → ℝ) (a : ℝ) (w : K → ℝ) (B : R → K → ℝ) (A : R → ℝ) (b : ℝ) :
    refEntry (fun k => ((x k : ℝ) : EReal)) a (fun k => ((w k : ℝ) : EReal)) (fun r k => ((B r k : ℝ) : EReal))
      (fun r => ((A r : ℝ) : EReal)) b = ((stepR x a w B A b : ℝ) : EReal) := by
  simp only [refEntry, stepR, EReal.coe_add, EReal.coe_mul, ← coe_sum]

/-- The real expression in the kernel's arrangement: the residual products are sums of zeros, and the scalar moves
    across the sum over r. -/
theorem stepR_eq_split (x : K → ℝ) (a : ℝ) (w : K → ℝ) (B : R → K → ℝ) (A : R → ℝ) (b : ℝ) :
    stepR x a w B A b
      = ((((∑ k, x k * w k) + (∑ k, x k * (w k - w k))) + (∑ k, (x k - x k) * w k))
          + (∑ r, (a * ∑ k, x k * B r k) * A r)) + b := by
  unfold stepR
  rw [Finset.mul_sum]
  simp only [sub_self, mul_zero, zero_mul, Finset.sum_const_zero, add_zero, mul_assoc]

/-- On real inputs, with the second weight the residual w − w, the kernel's arrangement is the real expression. -/
theorem kerEntry_coe (x : K → ℝ) (a : ℝ) (w : K → ℝ) (B : R → K → ℝ) (A : R → ℝ) (b : ℝ) :
    kerEntry (fun k => ((x k : ℝ) : EReal)) a (fun k => ((w k : ℝ) : EReal))
      (fun k => ((w k : ℝ) : EReal) - ((w k : ℝ) : EReal)) (fun r k => ((B r k : ℝ) : EReal))
      (fun r => ((A r : ℝ) : EReal)) b = ((stepR x a w B A b : ℝ) : EReal) := by
  rw [stepR_eq_split]
  simp only [kerEntry, EReal.coe_add, EReal.coe_mul, EReal.coe_sub, ← coe_sum]

/-- On real inputs the reference's arrangement is a real (the form used to carry finiteness along a chain). -/
theorem isR_refEntry {x : K → EReal} {a : EReal} {w : K → EReal} {B : R → K → EReal} {A : R → EReal} {b : EReal}
    (hx : ∀ k, IsR (x k)) (ha : IsR a) (hw : ∀ k, IsR (w k)) (hB : ∀ r k, IsR (B r k)) (hA : ∀ r, IsR (A r)) (hb : IsR b) :
    IsR (refEntry x a w B A b) :=
  ((IsR.sum _ _ fun k _ => (hx k).mul (hw k)).add
    (ha.mul (IsR.sum _ _ fun r _ => (IsR.sum _ _ fun k _ => (hx k).mul (hB r k)).mul (hA r)))).add hb

end Entry

end Cert.LoraChain

end
-- ==== Proof.Finite.lean ====
/-
  The precondition gives real inputs.

  The precondition is the conjunction, over the nine argument arrays, of "every entry's absolute value is below the
  top": a comparison of |x| with the infinity pattern at every entry, reduced by "and" over the whole array, and the nine
  results joined by "and". That the whole is 1 gives each comparison at each entry; |x| < ⊤ over the extended reals
  excludes x = ⊤ and x = ⊥ (whose absolute value is ⊤ too), so x is a real number.
-/
import proofs.«143806_j2216203125290_2_alg».proof.Pre_finite_inputs
import proofs.«143806_j2216203125290_2_alg».proof.Proof.Gen.Pre_finite_inputs
import proofs.«143806_j2216203125290_2_alg».proof.Proof.LayerAlgebra
import Idealize.ShloMosaic.Lib.ReduceAll
import Idealize.ShloMosaic.Lib.ValueIdx
import Idealize.ShloMosaic.PureOps.Ideal.Laws

noncomputable section

namespace Cert.LoraChain

open Idealize.ShloMosaic Cert.Pre_finite_inputs

instance : Subsingleton S_.Idx := ⟨fun a b => funext fun d => d.elim0⟩

/-- The f32 infinity pattern is the top of the extended reals. -/
theorem ofBits_inf : Ideal.ofBits .f32 0x7F800000#32 = (⊤ : EReal) := by simp [Ideal.ofBits, Ideal.ieee]

/-- An extended real whose absolute value is below the top is a real number. -/
theorem isR_of_abs_lt_top (x : EReal) (h : max x (-x) < ⊤) : IsR x := by
  induction x using EReal.rec with
  | bot => simp at h
  | top => simp at h
  | coe r => exact isR_coe r

/-- One entry's comparison: |a i| compared below the broadcast infinity pattern, answered 1, makes a i real. -/
theorem isR_of_cmp {s : Shape} (a : FVec Ideal s .f32) (hb : S_.BroadcastsInDim s ![]) (i : s.Idx)
    (h : cmpf .olt (Host.absf a) (broadcastInDim s ![] hb (constant (F := Ideal) S_ .f32 0x7F800000#32)) i = 1#1) :
    IsR (a i) := by
  have h' : Ideal.cmp .olt (max (a i) (-(a i))) (Ideal.ofBits .f32 0x7F800000#32) = 1#1 := h
  rw [ofBits_inf] at h'
  have h'' : BitVec.ofBool (decide (max (a i) (-(a i)) < (⊤ : EReal))) = 1#1 := h'
  refine isR_of_abs_lt_top _ ?_
  by_contra hn
  rw [decide_eq_false hn] at h''
  exact absurd h'' (by decide)

/-- The precondition's nine conjuncts, each read at every entry. -/
theorem real_of_pre (a0 : FVec Ideal S8192x1024 .f32) (a1 : FVec Ideal S8192x3 .f32) (a2 : FVec Ideal S8192 .f32)
    (a3 : FVec Ideal S4x1024x1024 .f32) (a4 : FVec Ideal S4x1024x16 .f32) (a5 : FVec Ideal S4x16x1024 .f32)
    (a6 : FVec Ideal S4x1024 .f32) (a7 : FVec Ideal S4x4 .f32) (a8 : FVec Ideal S4 .f32)
    (h : fn (F := Ideal) a0 a1 a2 a3 a4 a5 a6 a7 a8 = fun _ => 1#1) :
    (∀ i, IsR (a0 i)) ∧ (∀ i, IsR (a1 i)) ∧ (∀ i, IsR (a2 i)) ∧ (∀ i, IsR (a3 i)) ∧ (∀ i, IsR (a4 i))
      ∧ (∀ i, IsR (a5 i)) ∧ (∀ i, IsR (a6 i)) ∧ (∀ i, IsR (a7 i)) ∧ (∀ i, IsR (a8 i)) := by
  have h0 := congrFun h ValueIdx.ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => isR_of_cmp a0 _ i (Host.reduce_andi_all _ _ _ _ _ e0 i),
    fun i => isR_of_cmp a1 _ i (Host.reduce_andi_all _ _ _ _ _ e1 i),
    fun i => isR_of_cmp a2 _ i (Host.reduce_andi_all _ _ _ _ _ e2 i),
    fun i => isR_of_cmp a3 _ i (Host.reduce_andi_all _ _ _ _ _ e3 i),
    fun i => isR_of_cmp a4 _ i (Host.reduce_andi_all _ _ _ _ _ e4 i),
    fun i => isR_of_cmp a5 _ i (Host.reduce_andi_all _ _ _ _ _ e5 i),
    fun i => isR_of_cmp a6 _ i (Host.reduce_andi_all _ _ _ _ _ e6 i),
    fun i => isR_of_cmp a7 _ i (Host.reduce_andi_all _ _ _ _ _ e7 i),
    fun i => isR_of_cmp a8 _ i (Host.reduce_andi_all _ _ _ _ _ e8 i)⟩

end Cert.LoraChain

end
-- ==== Proof.RefLayers.lean ====
/-
  The reference, layer by layer, read at an entry.

  The reference computes the modulation scalars (a [8192, 4] array, one column per layer) and then four layers, each
  from the previous layer's [8192, 1024] value: it slices this layer's matrices out of the stacked weights, reshapes
  and transposes them, takes three general dot products, scales the low-rank one by the row's scalar, and adds the
  bias row. Reading each operation at an index (the generated read-at-an-index lemmas) and composing the index maps,
  entry (b, n) of a layer's value is the reference's arrangement of one layer at one entry (LayerAlgebra's
  `refEntry`) of row b of the previous value and this layer's slices. The composed index maps are identified with
  plain coordinates; where a reshape is on the way the coordinates are quotients and remainders by the row length.
-/
import proofs.«143806_j2216203125290_2_alg».proof.Proof.Gen.ReferenceIdeal.Read
import proofs.«143806_j2216203125290_2_alg».proof.Proof.LayerAlgebra
import Idealize.ShloMosaic.Lib.ValueIdx
import Idealize.ShloMosaic.PureOps.Ideal.Laws

noncomputable section

namespace Cert.LoraChain.Ref

open Idealize.ShloMosaic Idealize.ShloMosaic.ValueIdx Cert.ReferenceIdeal Cert.ReferenceIdeal.Read Cert.LoraChain

/-! ## Layer 0: buffers v7 to v27 -/

theorem eqX0 (b : Fin 8192) (n k : Fin 1024) : lidx_main_v19 (ix2 b n) k = ix2 b k :=
  funext fun a => by match a with | ⟨0, _⟩ => rfl | ⟨1, _⟩ => rfl

theorem eqXl0 (b : Fin 8192) (n : Fin 1024) (r : Fin 16) (k : Fin 1024) :
    lidx_main_v11 (lidx_main_v15 (ix2 b n) r) k = ix2 b k :=
  funext fun a => by match a with | ⟨0, _⟩ => rfl | ⟨1, _⟩ => rfl

theorem eqW0 (b : Fin 8192) (n k : Fin 1024) :
    idx_main_v16 (idx_main_v17 (idx_main_v18 (ridx_main_v19 (ix2 b n) k))) = ix3 (0 : Fin 4) n k :=
  funext fun a => by
    have hn := n.isLt; have hk := k.isLt
    match a with
    | ⟨0, _⟩ => rfl
    | ⟨1, _⟩ => exact Fin.ext (by show (n.val * 1024 + k.val) / 1024 % 1024 = n.val; omega)
    | ⟨2, _⟩ => exact Fin.ext (by show (n.val * 1024 + k.val) % 1024 = k.val; omega)

theorem eqB0 (b : Fin 8192) (n : Fin 1024) (r : Fin 16) (k : Fin 1024) :
    idx_main_v8 (idx_main_v9 (idx_main_v10 (ridx_main_v11 (lidx_main_v15 (ix2 b n) r) k))) = ix3 (0 : Fin 4) r k :=
  funext fun a => by
    have hr := r.isLt; have hk := k.isLt
    match a with
    | ⟨0, _⟩ => rfl
    | ⟨1, _⟩ => exact Fin.ext (by show (r.val * 1024 + k.val) / 1024 % 16 = r.val; omega)
    | ⟨2, _⟩ => exact Fin.ext (by show (r.val * 1024 + k.val) % 1024 = k.val; omega)

theorem eqA0 (b : Fin 8192) (n : Fin 1024) (r : Fin 16) :
    idx_main_v12 (idx_main_v13 (idx_main_v14 (ridx_main_v15 (ix2 b n) r))) = ix3 (0 : Fin 4) n r :=
  funext fun a => by
    have hr := r.isLt; have hn := n.isLt
    match a with
    | ⟨0, _⟩ => rfl
    | ⟨1, _⟩ => exact Fin.ext (by show (n.val * 16 + r.val) / 16 % 1024 = n.val; omega)
    | ⟨2, _⟩ => exact Fin.ext (by show (n.val * 16 + r.val) % 16 = r.val; omega)

theorem eqS0 (b : Fin 8192) (n : Fin 1024) : idx_main_v7 (idx_main_v20 (ix2 b n)) = ix2 b (0 : Fin 4) :=
  funext fun a => by match a with | ⟨0, _⟩ => rfl | ⟨1, _⟩ => rfl

theorem eqBias0 (b : Fin 8192) (n : Fin 1024) :
    idx_main_v23 (idx_main_v24 (idx_main_v25 (idx_main_v26 (ix2 b n)))) = ix2 (0 : Fin 4) n :=
  funext fun a => by
    have hn := n.isLt
    match a with
    | ⟨0, _⟩ => rfl
    | ⟨1, _⟩ => exact Fin.ext (by show n.val % 1024 = n.val; omega)

/-- Layer 0 of the reference at entry (b, n): the reference's arrangement of one layer, of row b of the previous
    value, the row's scalar for this layer, and this layer's weights. -/
theorem ref_layer0 (x0 : FVec Ideal S8192x1024 .f32) (x1 : FVec Ideal S8192x3 .f32) (x2 : FVec Ideal S8192 .f32)
    (x3 : FVec Ideal S4x1024x1024 .f32) (x4 : FVec Ideal S4x1024x16 .f32) (x5 : FVec Ideal S4x16x1024 .f32)
    (x6 : FVec Ideal S4x1024 .f32) (x7 : FVec Ideal S4x4 .f32) (x8 : FVec Ideal S4 .f32)
    (b : Fin 8192) (n : Fin 1024) :
    val_main_v27 (F := Ideal) x0 x1 x2 x3 x4 x5 x6 x7 x8 (ix2 b n)
      = refEntry (fun k : Fin 1024 => x0 (ix2 b k))
          (val_main_v6 (F := Ideal) x1 x2 x7 x8 (ix2 b (0 : Fin 4)))
          (fun k : Fin 1024 => x3 (ix3 (0 : Fin 4) n k)) (fun (r : Fin 16) (k : Fin 1024) => x5 (ix3 (0 : Fin 4) r k))
          (fun r : Fin 16 => x4 (ix3 (0 : Fin 4) n r)) (x6 (ix2 (0 : Fin 4) n)) := by
  unfold refEntry
  simp only [val_main_v27_apply, val_main_v22_apply, val_main_v19_apply, val_main_v21_apply,
    val_main_v20_apply, val_main_v7_apply, val_main_v15_apply, val_main_v11_apply,
    val_main_v10_apply, val_main_v9_apply, val_main_v8_apply, val_main_v14_apply,
    val_main_v13_apply, val_main_v12_apply, val_main_v18_apply, val_main_v17_apply,
    val_main_v16_apply, val_main_v26_apply, val_main_v25_apply, val_main_v24_apply,
    val_main_v23_apply, Ideal.addf_def, Ideal.mulf_def,
    eqX0, eqXl0, eqW0, eqB0, eqA0, eqS0, eqBias0]

/-! ## Layer 1: buffers v28 to v48 -/

theorem eqX1 (b : Fin 8192) (n k : Fin 1024) : lidx_main_v40 (ix2 b n) k = ix2 b k :=
  funext fun a => by match a with | ⟨0, _⟩ => rfl | ⟨1, _⟩ => rfl

theorem eqXl1 (b : Fin 8192) (n : Fin 1024) (r : Fin 16) (k : Fin 1024) :
    lidx_main_v32 (lidx_main_v36 (ix2 b n) r) k = ix2 b k :=
  funext fun a => by match a with | ⟨0, _⟩ => rfl | ⟨1, _⟩ => rfl

theorem eqW1 (b : Fin 8192) (n k : Fin 1024) :
    idx_main_v37 (idx_main_v38 (idx_main_v39 (ridx_main_v40 (ix2 b n) k))) = ix3 (1 : Fin 4) n k :=
  funext fun a => by
    have hn := n.isLt; have hk := k.isLt
    match a with
    | ⟨0, _⟩ => rfl
    | ⟨1, _⟩ => exact Fin.ext (by show (n.val * 1024 + k.val) / 1024 % 1024 = n.val; omega)
    | ⟨2, _⟩ => exact Fin.ext (by show (n.val * 1024 + k.val) % 1024 = k.val; omega)

theorem eqB1 (b : Fin 8192) (n : Fin 1024) (r : Fin 16) (k : Fin 1024) :
    idx_main_v29 (idx_main_v30 (idx_main_v31 (ridx_main_v32 (lidx_main_v36 (ix2 b n) r) k))) = ix3 (1 : Fin 4) r k :=
  funext fun a => by
    have hr := r.isLt; have hk := k.isLt
    match a with
    | ⟨0, _⟩ => rfl
    | ⟨1, _⟩ => exact Fin.ext (by show (r.val * 1024 + k.val) / 1024 % 16 = r.val; omega)
    | ⟨2, _⟩ => exact Fin.ext (by show (r.val * 1024 + k.val) % 1024 = k.val; omega)

theorem eqA1 (b : Fin 8192) (n : Fin 1024) (r : Fin 16) :
    idx_main_v33 (idx_main_v34 (idx_main_v35 (ridx_main_v36 (ix2 b n) r))) = ix3 (1 : Fin 4) n r :=
  funext fun a => by
    have hr := r.isLt; have hn := n.isLt
    match a with
    | ⟨0, _⟩ => rfl
    | ⟨1, _⟩ => exact Fin.ext (by show (n.val * 16 + r.val) / 16 % 1024 = n.val; omega)
    | ⟨2, _⟩ => exact Fin.ext (by show (n.val * 16 + r.val) % 16 = r.val; omega)

theorem eqS1 (b : Fin 8192) (n : Fin 1024) : idx_main_v28 (idx_main_v41 (ix2 b n)) = ix2 b (1 : Fin 4) :=
  funext fun a => by match a with | ⟨0, _⟩ => rfl | ⟨1, _⟩ => rfl

theorem eqBias1 (b : Fin 8192) (n : Fin 1024) :
    idx_main_v44 (idx_main_v45 (idx_main_v46 (idx_main_v47 (ix2 b n)))) = ix2 (1 : Fin 4) n :=
  funext fun a => by
    have hn := n.isLt
    match a with
    | ⟨0, _⟩ => rfl
    | ⟨1, _⟩ => exact Fin.ext (by show n.val % 1024 = n.val; omega)

/-- Layer 1 of the reference at entry (b, n): the reference's arrangement of one layer, of row b of the previous
    value, the row's scalar for this layer, and this layer's weights. -/
theorem ref_layer1 (x0 : FVec Ideal S8192x1024 .f32) (x1 : FVec Ideal S8192x3 .f32) (x2 : FVec Ideal S8192 .f32)
    (x3 : FVec Ideal S4x1024x1024 .f32) (x4 : FVec Ideal S4x1024x16 .f32) (x5 : FVec Ideal S4x16x1024 .f32)
    (x6 : FVec Ideal S4x1024 .f32) (x7 : FVec Ideal S4x4 .f32) (x8 : FVec Ideal S4 .f32)
    (b : Fin 8192) (n : Fin 1024) :
    val_main_v48 (F := Ideal) x0 x1 x2 x3 x4 x5 x6 x7 x8 (ix2 b n)
      = refEntry (fun k : Fin 1024 => (val_main_v27 (F := Ideal) x0 x1 x2 x3 x4 x5 x6 x7 x8) (ix2 b k))
          (val_main_v6 (F := Ideal) x1 x2 x7 x8 (ix2 b (1 : Fin 4)))
          (fun k : Fin 1024 => x3 (ix3 (1 : Fin 4) n k)) (fun (r : Fin 16) (k : Fin 1024) => x5 (ix3 (1 : Fin 4) r k))
          (fun r : Fin 16 => x4 (ix3 (1 : Fin 4) n r)) (x6 (ix2 (1 : Fin 4) n)) := by
  unfold refEntry
  simp only [val_main_v48_apply, val_main_v43_apply, val_main_v40_apply, val_main_v42_apply,
    val_main_v41_apply, val_main_v28_apply, val_main_v36_apply, val_main_v32_apply,
    val_main_v31_apply, val_main_v30_apply, val_main_v29_apply, val_main_v35_apply,
    val_main_v34_apply, val_main_v33_apply, val_main_v39_apply, val_main_v38_apply,
    val_main_v37_apply, val_main_v47_apply, val_main_v46_apply, val_main_v45_apply,
    val_main_v44_apply, Ideal.addf_def, Ideal.mulf_def,
    eqX1, eqXl1, eqW1, eqB1, eqA1, eqS1, eqBias1]

/-! ## Layer 2: buffers v49 to v69 -/

theorem eqX2 (b : Fin 8192) (n k : Fin 1024) : lidx_main_v61 (ix2 b n) k = ix2 b k :=
  funext fun a => by match a with | ⟨0, _⟩ => rfl | ⟨1, _⟩ => rfl

theorem eqXl2 (b : Fin 8192) (n : Fin 1024) (r : Fin 16) (k : Fin 1024) :
    lidx_main_v53 (lidx_main_v57 (ix2 b n) r) k = ix2 b k :=
  funext fun a => by match a with | ⟨0, _⟩ => rfl | ⟨1, _⟩ => rfl

theorem eqW2 (b : Fin 8192) (n k : Fin 1024) :
    idx_main_v58 (idx_main_v59 (idx_main_v60 (ridx_main_v61 (ix2 b n) k))) = ix3 (2 : Fin 4) n k :=
  funext fun a => by
    have hn := n.isLt; have hk := k.isLt
    match a with
    | ⟨0, _⟩ => rfl
    | ⟨1, _⟩ => exact Fin.ext (by show (n.val * 1024 + k.val) / 1024 % 1024 = n.val; omega)
    | ⟨2, _⟩ => exact Fin.ext (by show (n.val * 1024 + k.val) % 1024 = k.val; omega)

theorem eqB2 (b : Fin 8192) (n : Fin 1024) (r : Fin 16) (k : Fin 1024) :
    idx_main_v50 (idx_main_v51 (idx_main_v52 (ridx_main_v53 (lidx_main_v57 (ix2 b n) r) k))) = ix3 (2 : Fin 4) r k :=
  funext fun a => by
    have hr := r.isLt; have hk := k.isLt
    match a with
    | ⟨0, _⟩ => rfl
    | ⟨1, _⟩ => exact Fin.ext (by show (r.val * 1024 + k.val) / 1024 % 16 = r.val; omega)
    | ⟨2, _⟩ => exact Fin.ext (by show (r.val * 1024 + k.val) % 1024 = k.val; omega)

theorem eqA2 (b : Fin 8192) (n : Fin 1024) (r : Fin 16) :
    idx_main_v54 (idx_main_v55 (idx_main_v56 (ridx_main_v57 (ix2 b n) r))) = ix3 (2 : Fin 4) n r :=
  funext fun a => by
    have hr := r.isLt; have hn := n.isLt
    match a with
    | ⟨0, _⟩ => rfl
    | ⟨1, _⟩ => exact Fin.ext (by show (n.val * 16 + r.val) / 16 % 1024 = n.val; omega)
    | ⟨2, _⟩ => exact Fin.ext (by show (n.val * 16 + r.val) % 16 = r.val; omega)

theorem eqS2 (b : Fin 8192) (n : Fin 1024) : idx_main_v49 (idx_main_v62 (ix2 b n)) = ix2 b (2 : Fin 4) :=
  funext fun a => by match a with | ⟨0, _⟩ => rfl | ⟨1, _⟩ => rfl

theorem eqBias2 (b : Fin 8192) (n : Fin 1024) :
    idx_main_v65 (idx_main_v66 (idx_main_v67 (idx_main_v68 (ix2 b n)))) = ix2 (2 : Fin 4) n :=
  funext fun a => by
    have hn := n.isLt
    match a with
    | ⟨0, _⟩ => rfl
    | ⟨1, _⟩ => exact Fin.ext (by show n.val % 1024 = n.val; omega)

/-- Layer 2 of the reference at entry (b, n): the reference's arrangement of one layer, of row b of the previous
    value, the row's scalar for this layer, and this layer's weights. -/
theorem ref_layer2 (x0 : FVec Ideal S8192x1024 .f32) (x1 : FVec Ideal S8192x3 .f32) (x2 : FVec Ideal S8192 .f32)
    (x3 : FVec Ideal S4x1024x1024 .f32) (x4 : FVec Ideal S4x1024x16 .f32) (x5 : FVec Ideal S4x16x1024 .f32)
    (x6 : FVec Ideal S4x1024 .f32) (x7 : FVec Ideal S4x4 .f32) (x8 : FVec Ideal S4 .f32)
    (b : Fin 8192) (n : Fin 1024) :
    val_main_v69 (F := Ideal) x0 x1 x2 x3 x4 x5 x6 x7 x8 (ix2 b n)
      = refEntry (fun k : Fin 1024 => (val_main_v48 (F := Ideal) x0 x1 x2 x3 x4 x5 x6 x7 x8) (ix2 b k))
          (val_main_v6 (F := Ideal) x1 x2 x7 x8 (ix2 b (2 : Fin 4)))
          (fun k : Fin 1024 => x3 (ix3 (2 : Fin 4) n k)) (fun (r : Fin 16) (k : Fin 1024) => x5 (ix3 (2 : Fin 4) r k))
          (fun r : Fin 16 => x4 (ix3 (2 : Fin 4) n r)) (x6 (ix2 (2 : Fin 4) n)) := by
  unfold refEntry
  simp only [val_main_v69_apply, val_main_v64_apply, val_main_v61_apply, val_main_v63_apply,
    val_main_v62_apply, val_main_v49_apply, val_main_v57_apply, val_main_v53_apply,
    val_main_v52_apply, val_main_v51_apply, val_main_v50_apply, val_main_v56_apply,
    val_main_v55_apply, val_main_v54_apply, val_main_v60_apply, val_main_v59_apply,
    val_main_v58_apply, val_main_v68_apply, val_main_v67_apply, val_main_v66_apply,
    val_main_v65_apply, Ideal.addf_def, Ideal.mulf_def,
    eqX2, eqXl2, eqW2, eqB2, eqA2, eqS2, eqBias2]

/-! ## Layer 3: buffers v70 to v90 -/

theorem eqX3 (b : Fin 8192) (n k : Fin 1024) : lidx_main_v82 (ix2 b n) k = ix2 b k :=
  funext fun a => by match a with | ⟨0, _⟩ => rfl | ⟨1, _⟩ => rfl

theorem eqXl3 (b : Fin 8192) (n : Fin 1024) (r : Fin 16) (k : Fin 1024) :
    lidx_main_v74 (lidx_main_v78 (ix2 b n) r) k = ix2 b k :=
  funext fun a => by match a with | ⟨0, _⟩ => rfl | ⟨1, _⟩ => rfl

theorem eqW3 (b : Fin 8192) (n k : Fin 1024) :
    idx_main_v79 (idx_main_v80 (idx_main_v81 (ridx_main_v82 (ix2 b n) k))) = ix3 (3 : Fin 4) n k :=
  funext fun a => by
    have hn := n.isLt; have hk := k.isLt
    match a with
    | ⟨0, _⟩ => rfl
    | ⟨1, _⟩ => exact Fin.ext (by show (n.val * 1024 + k.val) / 1024 % 1024 = n.val; omega)
    | ⟨2, _⟩ => exact Fin.ext (by show (n.val * 1024 + k.val) % 1024 = k.val; omega)

theorem eqB3 (b : Fin 8192) (n : Fin 1024) (r : Fin 16) (k : Fin 1024) :
    idx_main_v71 (idx_main_v72 (idx_main_v73 (ridx_main_v74 (lidx_main_v78 (ix2 b n) r) k))) = ix3 (3 : Fin 4) r k :=
  funext fun a => by
    have hr := r.isLt; have hk := k.isLt
    match a with
    | ⟨0, _⟩ => rfl
    | ⟨1, _⟩ => exact Fin.ext (by show (r.val * 1024 + k.val) / 1024 % 16 = r.val; omega)
    | ⟨2, _⟩ => exact Fin.ext (by show (r.val * 1024 + k.val) % 1024 = k.val; omega)

theorem eqA3 (b : Fin 8192) (n : Fin 1024) (r : Fin 16) :
    idx_main_v75 (idx_main_v76 (idx_main_v77 (ridx_main_v78 (ix2 b n) r))) = ix3 (3 : Fin 4) n r :=
  funext fun a => by
    have hr := r.isLt; have hn := n.isLt
    match a with
    | ⟨0, _⟩ => rfl
    | ⟨1, _⟩ => exact Fin.ext (by show (n.val * 16 + r.val) / 16 % 1024 = n.val; omega)
    | ⟨2, _⟩ => exact Fin.ext (by show (n.val * 16 + r.val) % 16 = r.val; omega)

theorem eqS3 (b : Fin 8192) (n : Fin 1024) : idx_main_v70 (idx_main_v83 (ix2 b n)) = ix2 b (3 : Fin 4) :=
  funext fun a => by match a with | ⟨0, _⟩ => rfl | ⟨1, _⟩ => rfl

theorem eqBias3 (b : Fin 8192) (n : Fin 1024) :
    idx_main_v86 (idx_main_v87 (idx_main_v88 (idx_main_v89 (ix2 b n)))) = ix2 (3 : Fin 4) n :=
  funext fun a => by
    have hn := n.isLt
    match a with
    | ⟨0, _⟩ => rfl
    | ⟨1, _⟩ => exact Fin.ext (by show n.val % 1024 = n.val; omega)

/-- Layer 3 of the reference at entry (b, n): the reference's arrangement of one layer, of row b of the previous
    value, the row's scalar for this layer, and this layer's weights. -/
theorem ref_layer3 (x0 : FVec Ideal S8192x1024 .f32) (x1 : FVec Ideal S8192x3 .f32) (x2 : FVec Ideal S8192 .f32)
    (x3 : FVec Ideal S4x1024x1024 .f32) (x4 : FVec Ideal S4x1024x16 .f32) (x5 : FVec Ideal S4x16x1024 .f32)
    (x6 : FVec Ideal S4x1024 .f32) (x7 : FVec Ideal S4x4 .f32) (x8 : FVec Ideal S4 .f32)
    (b : Fin 8192) (n : Fin 1024) :
    val_main_v90 (F := Ideal) x0 x1 x2 x3 x4 x5 x6 x7 x8 (ix2 b n)
      = refEntry (fun k : Fin 1024 => (val_main_v69 (F := Ideal) x0 x1 x2 x3 x4 x5 x6 x7 x8) (ix2 b k))
          (val_main_v6 (F := Ideal) x1 x2 x7 x8 (ix2 b (3 : Fin 4)))
          (fun k : Fin 1024 => x3 (ix3 (3 : Fin 4) n k)) (fun (r : Fin 16) (k : Fin 1024) => x5 (ix3 (3 : Fin 4) r k))
          (fun r : Fin 16 => x4 (ix3 (3 : Fin 4) n r)) (x6 (ix2 (3 : Fin 4) n)) := by
  unfold refEntry
  simp only [val_main_v90_apply, val_main_v85_apply, val_main_v82_apply, val_main_v84_apply,
    val_main_v83_apply, val_main_v70_apply, val_main_v78_apply, val_main_v74_apply,
    val_main_v73_apply, val_main_v72_apply, val_main_v71_apply, val_main_v77_apply,
    val_main_v76_apply, val_main_v75_apply, val_main_v81_apply, val_main_v80_apply,
    val_main_v79_apply, val_main_v89_apply, val_main_v88_apply, val_main_v87_apply,
    val_main_v86_apply, Ideal.addf_def, Ideal.mulf_def,
    eqX3, eqXl3, eqW3, eqB3, eqA3, eqS3, eqBias3]

end Cert.LoraChain.Ref

end
-- ==== Proof.ChainSpec.lean ====
/-
  The chain of four layers as one function of the argument arrays.

  For a batch row b with seed row X b and modulation scalars al b 0 … al b 3, layer l sends a row Y b to the row whose
  entry n is
      Σₖ Y b k · W l n k  +  al b l · Σᵣ (Σₖ Y b k · B l r k) · A l n r  +  bias l n
  (LayerAlgebra's `stepR`), and the chain applies layers 0, 1, 2, 3 in turn. A layer acts on each row by itself, so the
  definitions are stated for any type of row names: the chain of a block of rows is the chain of all rows, restricted
  to the block, by unfolding.

  `G` is the result array both programs are shown to end at: entry (b, n) is the chain's value at (b, n), computed
  from the real parts of the six arrays the chain reads (the seed, the scalars, the dense weights, the up- and
  down-projections, the biases). On arrays of real numbers the real parts lose nothing.
-/
import proofs.«143806_j2216203125290_2_alg».proof.Proof.LayerAlgebra
import Idealize.ShloMosaic.Lib.ValueIdx

noncomputable section

namespace Cert.LoraChain

open Idealize.ShloMosaic Idealize.ShloMosaic.ValueIdx

/-- One layer applied to every row. -/
def layerR {ρ : Type} (al : ρ → ℝ) (W : Fin 1024 → Fin 1024 → ℝ) (A : Fin 1024 → Fin 16 → ℝ) (B : Fin 16 → Fin 1024 → ℝ)
    (bias : Fin 1024 → ℝ) (Y : ρ → Fin 1024 → ℝ) : ρ → Fin 1024 → ℝ :=
  fun b n => stepR (Y b) (al b) (W n) B (A n) (bias n)

/-- The four layers in turn. -/
def chainR {ρ : Type} (X : ρ → Fin 1024 → ℝ) (al : ρ → Fin 4 → ℝ) (W : Fin 4 → Fin 1024 → Fin 1024 → ℝ)
    (A : Fin 4 → Fin 1024 → Fin 16 → ℝ) (B : Fin 4 → Fin 16 → Fin 1024 → ℝ) (bias : Fin 4 → Fin 1024 → ℝ) :
    ρ → Fin 1024 → ℝ :=
  layerR (fun b => al b 3) (W 3) (A 3) (B 3) (bias 3)
    (layerR (fun b => al b 2) (W 2) (A 2) (B 2) (bias 2)
      (layerR (fun b => al b 1) (W 1) (A 1) (B 1) (bias 1)
        (layerR (fun b => al b 0) (W 0) (A 0) (B 0) (bias 0) X)))

/-- The chain of a family of rows picked out of a larger one is the larger chain at the picked rows. -/
theorem chainR_comp {ρ σ : Type} (f : σ → ρ) (X : ρ → Fin 1024 → ℝ) (al : ρ → Fin 4 → ℝ)
    (W : Fin 4 → Fin 1024 → Fin 1024 → ℝ) (A : Fin 4 → Fin 1024 → Fin 16 → ℝ) (B : Fin 4 → Fin 16 → Fin 1024 → ℝ)
    (bias : Fin 4 → Fin 1024 → ℝ) (s : σ) (n : Fin 1024) :
    chainR (fun s => X (f s)) (fun s => al (f s)) W A B bias s n = chainR X al W A B bias (f s) n := rfl

/-- The real parts of the six arrays the chain reads. -/
def seedR (x0 : (⟨2, ![8192, 1024]⟩ : Shape).Idx → EReal) : Fin 8192 → Fin 1024 → ℝ := fun b k => (x0 (ix2 b k)).toReal
def scalR (al : (⟨2, ![8192, 4]⟩ : Shape).Idx → EReal) : Fin 8192 → Fin 4 → ℝ := fun b l => (al (ix2 b l)).toReal
def denseR (x3 : (⟨3, ![4, 1024, 1024]⟩ : Shape).Idx → EReal) : Fin 4 → Fin 1024 → Fin 1024 → ℝ :=
  fun l n k => (x3 (ix3 l n k)).toReal
def upR (x4 : (⟨3, ![4, 1024, 16]⟩ : Shape).Idx → EReal) : Fin 4 → Fin 1024 → Fin 16 → ℝ :=
  fun l n r => (x4 (ix3 l n r)).toReal
def downR (x5 : (⟨3, ![4, 16, 1024]⟩ : Shape).Idx → EReal) : Fin 4 → Fin 16 → Fin 1024 → ℝ :=
  fun l r k => (x5 (ix3 l r k)).toReal
def biasR (x6 : (⟨2, ![4, 1024]⟩ : Shape).Idx → EReal) : Fin 4 → Fin 1024 → ℝ := fun l n => (x6 (ix2 l n)).toReal

/-- The result array: the chain's value at every entry. -/
def G (x0 : (⟨2, ![8192, 1024]⟩ : Shape).Idx → EReal) (al : (⟨2, ![8192, 4]⟩ : Shape).Idx → EReal)
    (x3 : (⟨3, ![4, 1024, 1024]⟩ : Shape).Idx → EReal) (x4 : (⟨3, ![4, 1024, 16]⟩ : Shape).Idx → EReal)
    (x5 : (⟨3, ![4, 16, 1024]⟩ : Shape).Idx → EReal) (x6 : (⟨2, ![4, 1024]⟩ : Shape).Idx → EReal) :
    (⟨2, ![8192, 1024]⟩ : Shape).Idx → EReal :=
  fun i => ((chainR (seedR x0) (scalR al) (denseR x3) (upR x4) (downR x5) (biasR x6) (i 0) (i 1) : ℝ) : EReal)

end Cert.LoraChain

end
-- ==== Proof.LibConcatWide.lean ====
import Idealize.ShloMosaic.Lib.ValueIdx
import Idealize.ShloMosaic.Lib.Pipeline.Value

/-!
# Two matrices laid side by side, read at an index

For `a : [R, A]` and `b : [R, B]` concatenated along axis 1 into `[R, T]` (so `T = A + B`), entry `(r, j)` of the
result is `a (r, j)` for a column `j` of the first piece and `b (r, n)` at column `A + n`. No proof enumerates an extent.
-/

namespace Cert.LibConcatWide

open Idealize.ShloMosaic Idealize.ShloMosaic.ValueIdx

variable {α : Type}

/-- The widths of two pieces laid side by side add up to the whole's. -/
theorem concatWide_total {R A B T : Nat}
    (h : Shape.Concatenates [⟨2, ![R, A]⟩, ⟨2, ![R, B]⟩] ⟨2, ![R, T]⟩ 1) : A + B = T := by
  have e : A + (B + 0) = T := h.2.2
  omega

/-- A column of the first piece: entry `(r, j)` of the concatenation is the first piece's. -/
theorem concatWide_apply_left {R A B T : Nat} (a : (⟨2, ![R, A]⟩ : Shape).Idx → α) (b : (⟨2, ![R, B]⟩ : Shape).Idx → α)
    (h : Shape.Concatenates [⟨2, ![R, A]⟩, ⟨2, ![R, B]⟩] ⟨2, ![R, T]⟩ 1) (r : Fin R) (j : Fin A) (hj : j.val < T) :
    concatenate ⟨2, ![R, T]⟩ 1 [⟨⟨2, ![R, A]⟩, a⟩, ⟨⟨2, ![R, B]⟩, b⟩] h (ix2 r (⟨j.val, hj⟩ : Fin T)) = a (ix2 r j) :=
  concatenate_pair_apply_left 1 a b h (ix2 r (⟨j.val, hj⟩ : Fin T)) rfl (ix2 r j)
    (Fin.forall_fin_two.2 ⟨rfl, rfl⟩)

/-- A column of the second piece: entry `(r, A + n)` of the concatenation is the second piece's `(r, n)`. -/
theorem concatWide_apply_right {R A B T : Nat} (a : (⟨2, ![R, A]⟩ : Shape).Idx → α) (b : (⟨2, ![R, B]⟩ : Shape).Idx → α)
    (h : Shape.Concatenates [⟨2, ![R, A]⟩, ⟨2, ![R, B]⟩] ⟨2, ![R, T]⟩ 1) (r : Fin R) (n : Fin B) (hn : A + n.val < T) :
    concatenate ⟨2, ![R, T]⟩ 1 [⟨⟨2, ![R, A]⟩, a⟩, ⟨⟨2, ![R, B]⟩, b⟩] h (ix2 r (⟨A + n.val, hn⟩ : Fin T)) = b (ix2 r n) :=
  concatenate_pair_apply_right 1 a b h (ix2 r (⟨A + n.val, hn⟩ : Fin T)) rfl rfl (ix2 r n)
    (Fin.forall_fin_two.2 ⟨fun _ => rfl, fun hk => absurd rfl hk⟩) (by show n.val + A = A + n.val; omega)

end Cert.LibConcatWide
-- ==== Proof.RefValue.lean ====
/-
  The reference's result is the chain, on real inputs.

  The modulation scalars are the same seven host operations in both programs: a concatenation of the physical
  parameters with the time column, a 4-term dot product with the transposed head weights, and the head bias. Every
  entry is a finite sum of products of real inputs plus a real input, hence real. Given that, layer by layer, each
  entry of a layer's value is the reference's arrangement of one layer on real inputs, which is the coercion of the
  real layer (LayerAlgebra); so each layer's value is real and the next layer applies again. After four layers the
  result is the array `G` of the chain specification.
-/
import proofs.«143806_j2216203125290_2_alg».proof.Proof.RefLayers
import proofs.«143806_j2216203125290_2_alg».proof.Proof.ChainSpec
import proofs.«143806_j2216203125290_2_alg».proof.Proof.LibConcatWide

noncomputable section

namespace Cert.LoraChain.Ref

open Idealize.ShloMosaic Idealize.ShloMosaic.ValueIdx Cert.ReferenceIdeal Cert.ReferenceIdeal.Gen Cert.ReferenceIdeal.Read
  Cert.LoraChain

section

variable (x0 : FVec Ideal S8192x1024 .f32) (x1 : FVec Ideal S8192x3 .f32) (x2 : FVec Ideal S8192 .f32)
    (x3 : FVec Ideal S4x1024x1024 .f32) (x4 : FVec Ideal S4x1024x16 .f32) (x5 : FVec Ideal S4x16x1024 .f32)
    (x6 : FVec Ideal S4x1024 .f32) (x7 : FVec Ideal S4x4 .f32) (x8 : FVec Ideal S4 .f32)

/-- An entry of the concatenation [physical parameters | time] is one of the two operands' entries. -/
theorem isR_concat (h1 : ∀ i, IsR (x1 i)) (h2 : ∀ i, IsR (x2 i)) (j : S8192x4.Idx) :
    IsR (val_main_v1 (F := Ideal) x1 x2 j) := by
  obtain ⟨r, c, rfl⟩ : ∃ (r : Fin 8192) (c : Fin 4), j = ix2 r c := ⟨j 0, j 1, eq_ix2 j⟩
  unfold val_main_v1
  by_cases hc : c.val < 3
  · have e := LibConcatWide.concatWide_apply_left x1 (val_main_v0 (F := Ideal) x2)
      concatenates_S8192x3_S8192x1_S8192x4_d1 r (⟨c.val, hc⟩ : Fin 3) c.isLt
    show IsR (concatenate S8192x4 1 [⟨S8192x3, x1⟩, ⟨S8192x1, val_main_v0 (F := Ideal) x2⟩]
      concatenates_S8192x3_S8192x1_S8192x4_d1 (ix2 r (⟨c.val, c.isLt⟩ : Fin 4)))
    rw [e]
    exact h1 _
  · obtain ⟨cv, hcv⟩ := c
    have hc3 : cv = 3 := by simp only at hc; omega
    subst hc3
    have e := LibConcatWide.concatWide_apply_right x1 (val_main_v0 (F := Ideal) x2)
      concatenates_S8192x3_S8192x1_S8192x4_d1 r (0 : Fin 1) (by decide : 3 + ((0 : Fin 1) : Nat) < 4)
    show IsR (concatenate S8192x4 1 [⟨S8192x3, x1⟩, ⟨S8192x1, val_main_v0 (F := Ideal) x2⟩]
      concatenates_S8192x3_S8192x1_S8192x4_d1 (ix2 r (⟨3 + ((0 : Fin 1) : Nat), by decide⟩ : Fin 4)))
    rw [e, val_main_v0_apply]
    exact h2 _

/-- Every modulation scalar is a real number. -/
theorem isR_alpha (h1 : ∀ i, IsR (x1 i)) (h2 : ∀ i, IsR (x2 i)) (h7 : ∀ i, IsR (x7 i)) (h8 : ∀ i, IsR (x8 i))
    (i : S8192x4.Idx) : IsR (val_main_v6 (F := Ideal) x1 x2 x7 x8 i) := by
  rw [val_main_v6_apply, Ideal.addf_def]
  refine IsR.add ?_ ?_
  · rw [val_main_v3_apply]
    exact IsR.sum _ _ fun k _ => (isR_concat x1 x2 h1 h2 _).mul (by rw [val_main_v2_apply]; exact h7 _)
  · rw [val_main_v5_apply, val_main_v4_apply]
    exact h8 _

/-- On real inputs the reference's result array is the chain. -/
theorem ref_value (h0 : ∀ i, IsR (x0 i)) (h1 : ∀ i, IsR (x1 i)) (h2 : ∀ i, IsR (x2 i)) (h3 : ∀ i, IsR (x3 i))
    (h4 : ∀ i, IsR (x4 i)) (h5 : ∀ i, IsR (x5 i)) (h6 : ∀ i, IsR (x6 i)) (h7 : ∀ i, IsR (x7 i)) (h8 : ∀ i, IsR (x8 i)) :
    val_main_v90 (F := Ideal) x0 x1 x2 x3 x4 x5 x6 x7 x8
      = G x0 (val_main_v6 (F := Ideal) x1 x2 x7 x8) x3 x4 x5 x6 := by
  have Hal : ∀ (b : Fin 8192) (l : Fin 4), val_main_v6 (F := Ideal) x1 x2 x7 x8 (ix2 b l)
      = ((scalR (val_main_v6 (F := Ideal) x1 x2 x7 x8) b l : ℝ) : EReal) :=
    fun b l => (isR_alpha x1 x2 x7 x8 h1 h2 h7 h8 _).coe_toReal
  have H0 : ∀ (b : Fin 8192) (k : Fin 1024), x0 (ix2 b k) = ((seedR x0 b k : ℝ) : EReal) := fun b k => (h0 _).coe_toReal
  have H3 : ∀ (l : Fin 4) (n k : Fin 1024), x3 (ix3 l n k) = ((denseR x3 l n k : ℝ) : EReal) :=
    fun l n k => (h3 _).coe_toReal
  have H4 : ∀ (l : Fin 4) (n : Fin 1024) (r : Fin 16), x4 (ix3 l n r) = ((upR x4 l n r : ℝ) : EReal) :=
    fun l n r => (h4 _).coe_toReal
  have H5 : ∀ (l : Fin 4) (r : Fin 16) (k : Fin 1024), x5 (ix3 l r k) = ((downR x5 l r k : ℝ) : EReal) :=
    fun l r k => (h5 _).coe_toReal
  have H6 : ∀ (l : Fin 4) (n : Fin 1024), x6 (ix2 l n) = ((biasR x6 l n : ℝ) : EReal) := fun l n => (h6 _).coe_toReal
  have L0 : ∀ (b : Fin 8192) (n : Fin 1024), val_main_v27 (F := Ideal) x0 x1 x2 x3 x4 x5 x6 x7 x8 (ix2 b n)
      = ((layerR (fun b => scalR (val_main_v6 (F := Ideal) x1 x2 x7 x8) b 0) (denseR x3 0) (upR x4 0) (downR x5 0)
          (biasR x6 0) (seedR x0) b n : ℝ) : EReal) := by
    intro b n
    rw [ref_layer0]
    simp only [H0, Hal, H3, H4, H5, H6]
    exact refEntry_coe _ _ _ _ _ _
  have L1 : ∀ (b : Fin 8192) (n : Fin 1024), val_main_v48 (F := Ideal) x0 x1 x2 x3 x4 x5 x6 x7 x8 (ix2 b n)
      = ((layerR (fun b => scalR (val_main_v6 (F := Ideal) x1 x2 x7 x8) b 1) (denseR x3 1) (upR x4 1) (downR x5 1)
          (biasR x6 1)
          (layerR (fun b => scalR (val_main_v6 (F := Ideal) x1 x2 x7 x8) b 0) (denseR x3 0) (upR x4 0) (downR x5 0)
            (biasR x6 0) (seedR x0)) b n : ℝ) : EReal) := by
    intro b n
    rw [ref_layer1]
    simp only [L0, Hal, H3, H4, H5, H6]
    exact refEntry_coe _ _ _ _ _ _
  have L2 : ∀ (b : Fin 8192) (n : Fin 1024), val_main_v69 (F := Ideal) x0 x1 x2 x3 x4 x5 x6 x7 x8 (ix2 b n)
      = ((layerR (fun b => scalR (val_main_v6 (F := Ideal) x1 x2 x7 x8) b 2) (denseR x3 2) (upR x4 2) (downR x5 2)
          (biasR x6 2)
          (layerR (fun b => scalR (val_main_v6 (F := Ideal) x1 x2 x7 x8) b 1) (denseR x3 1) (upR x4 1) (downR x5 1)
            (biasR x6 1)
            (layerR (fun b => scalR (val_main_v6 (F := Ideal) x1 x2 x7 x8) b 0) (denseR x3 0) (upR x4 0) (downR x5 0)
              (biasR x6 0) (seedR x0))) b n : ℝ) : EReal) := by
    intro b n
    rw [ref_layer2]
    simp only [L1, Hal, H3, H4, H5, H6]
    exact refEntry_coe _ _ _ _ _ _
  funext i
  obtain ⟨b, n, rfl⟩ : ∃ (b : Fin 8192) (n : Fin 1024), i = ix2 b n := ⟨i 0, i 1, eq_ix2 i⟩
  rw [ref_layer3]
  simp only [L2, Hal, H3, H4, H5, H6]
  exact refEntry_coe _ _ _ _ _ _

end

end Cert.LoraChain.Ref

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.KerLayer.lean ====
/-
  One layer of the chain as the kernel's body computes it on a block of rows, read at an entry.

  The body repeats one pattern four times. From the running block x ([1024, 1024], rows of the batch), the column a of
  the block of modulation scalars, and one layer's slices of the resident weights (the transposed dense weight in two
  pieces wh and wl, the transposed down-projection bm, the transposed up-projection am, the bias row bv), it forms
      x·wh + x·wl + (x − x)·wh + (a ⊙ (x·bm))·am + bv
  with every matrix product accumulated into zero and every change of float format the identity over the extended
  reals. `layerV` is that pattern as one function of those seven values; each of the body's four layer values is it by
  unfolding. Read at entry (p, q) it is the kernel's arrangement of one layer at one output entry (LayerAlgebra's
  `kerEntry`) of row p of x, entry p of a, column q of the weights and entry q of the bias.
-/
import proofs.«143806_j2216203125290_2_alg».proof.Proof.Gen.KernelIdeal.Skeleton
import proofs.«143806_j2216203125290_2_alg».proof.Proof.LayerAlgebra
import proofs.«143806_j2216203125290_2_alg».proof.Proof.LibMatmulRowsByCols
import proofs.«143806_j2216203125290_2_alg».proof.Proof.LibColumnLayout
import Idealize.ShloMosaic.Lib.ValueLayout
import Idealize.ShloMosaic.Lib.ValueIdx
import Idealize.ShloMosaic.Lib.Pipeline.Value

noncomputable section

namespace Cert.LoraChain

open Idealize.ShloMosaic Idealize.ShloMosaic.ValueIdx Cert.KernelIdeal Cert.KernelIdeal.Gen

section Def
variable {F : FTy → Type} [FloatOps F]

/-- One layer on a block of rows, as the body computes it from the values it loads. -/
def layerV (x : FVec F S1024x1024 .f32) (a : Vec F S1024x1 .f32) (wh wl : Vec F S1x1024x1024 .bf16)
    (bm : Vec F S1x1024x16 .bf16) (am : Vec F S1x16x1024 .bf16) (bv : Vec F S1x1024 .f32) : FVec F S1024x1024 .f32 :=
  addf
    (addf
      (addf
        (addf
          (matmul dot_S1024x1024_S1024x1024_S1024x1024_1_0_0_1_n_n none (truncf .bf16 x bitsLt_bf16_f32)
            (shapeCast S1024x1024 wh shapeCasts_S1x1024x1024_S1024x1024) (constant S1024x1024 .f32 0x00000000#32))
          (matmul dot_S1024x1024_S1024x1024_S1024x1024_1_0_0_1_n_n none (truncf .bf16 x bitsLt_bf16_f32)
            (shapeCast S1024x1024 wl shapeCasts_S1x1024x1024_S1024x1024) (constant S1024x1024 .f32 0x00000000#32)))
        (matmul dot_S1024x1024_S1024x1024_S1024x1024_1_0_0_1_n_n none (truncf .bf16 (subf x x) bitsLt_bf16_f32)
          (shapeCast S1024x1024 wh shapeCasts_S1x1024x1024_S1024x1024) (constant S1024x1024 .f32 0x00000000#32)))
      (matmul dot_S1024x16_S16x1024_S1024x1024_1_0_0_1_n_n none
        (truncf .bf16
          (mulf (broadcastTo S1024x16 (shapeCast S1024x1 a shapeCasts_S1024x1_S1024x1) broadcasts_S1024x1_S1024x16)
            (matmul dot_S1024x1024_S1024x16_S1024x16_1_0_0_1_n_n none (truncf .bf16 x bitsLt_bf16_f32)
              (shapeCast S1024x16 bm shapeCasts_S1x1024x16_S1024x16) (constant S1024x16 .f32 0x00000000#32)))
          bitsLt_bf16_f32)
        (shapeCast S16x1024 am shapeCasts_S1x16x1024_S16x1024) (constant S1024x1024 .f32 0x00000000#32)))
    (broadcastTo S1024x1024
      (shapeCast S1x1024 (shapeCast S1024 bv shapeCasts_S1x1024_S1024) shapeCasts_S1024_S1x1024)
      broadcasts_S1x1024_S1024x1024)

/-- The four layer values of the body are this pattern: the first from the loaded block, each later one from the
    previous layer's value. -/
theorem pay2_eq (v0 : Vec F S1024x1024 .f32) (v1 : Vec F S1024x1 .f32) (v7 v9 : Vec F S1x1024x1024 .bf16)
    (v11 : Vec F S1x1024x16 .bf16) (v13 : Vec F S1x16x1024 .bf16) (v15 : Vec F S1x1024 .f32) :
    k0_pay2 v0 v1 v7 v9 v11 v13 v15 = layerV v0 v1 v7 v9 v11 v13 v15 := rfl

theorem pay5_eq (v30 : FVec F S1024x1024 .f32) (v31 : Vec F S1024x1 .f32) (v37 v39 : Vec F S1x1024x1024 .bf16)
    (v41 : Vec F S1x1024x16 .bf16) (v43 : Vec F S1x16x1024 .bf16) (v45 : Vec F S1x1024 .f32) :
    k0_pay5 v30 (k0_pay3 v31) (truncf .bf16 v30 bitsLt_bf16_f32) v37 v39 v41 v43 v45
      = layerV v30 v31 v37 v39 v41 v43 v45 := rfl

theorem pay10_eq (v60 : FVec F S1024x1024 .f32) (v61 : Vec F S1024x1 .f32) (v67 v69 : Vec F S1x1024x1024 .bf16)
    (v71 : Vec F S1x1024x16 .bf16) (v73 : Vec F S1x16x1024 .bf16) (v75 : Vec F S1x1024 .f32) :
    k0_pay10 (k0_pay6 v61) (truncf .bf16 v60 bitsLt_bf16_f32) (truncf .bf16 (subf v60 v60) bitsLt_bf16_f32)
        (k0_pay9 v67) v69 v71 v73 v75
      = layerV v60 v61 v67 v69 v71 v73 v75 := rfl

theorem pay1_eq (v90 : FVec F S1024x1024 .f32) (v91 : Vec F S1024x1 .f32) (v97 v99 : Vec F S1x1024x1024 .bf16)
    (v101 : Vec F S1x1024x16 .bf16) (v103 : Vec F S1x16x1024 .bf16) (v105 : Vec F S1x1024 .f32) :
    k0_pay1 (k0_pay11 v91) (truncf .bf16 v90 bitsLt_bf16_f32) (truncf .bf16 (subf v90 v90) bitsLt_bf16_f32)
        (k0_pay14 v97) (k0_pay15 v99) (k0_pay16 v101) v103 v105
      = layerV v90 v91 v97 v99 v101 v103 v105 := rfl

end Def

theorem isA : RowsByCols.Is dot_S1024x1024_S1024x1024_S1024x1024_1_0_0_1_n_n := ⟨rfl, rfl, rfl, rfl, rfl, rfl⟩
theorem isB : RowsByCols.Is dot_S1024x1024_S1024x16_S1024x16_1_0_0_1_n_n := ⟨rfl, rfl, rfl, rfl, rfl, rfl⟩
theorem isC : RowsByCols.Is dot_S1024x16_S16x1024_S1024x1024_1_0_0_1_n_n := ⟨rfl, rfl, rfl, rfl, rfl, rfl⟩

/-- The pattern at entry (p, q), over the extended reals: the kernel's arrangement of one layer at one output entry. -/
theorem layerV_entry (x : FVec Ideal S1024x1024 .f32) (a : Vec Ideal S1024x1 .f32) (wh wl : Vec Ideal S1x1024x1024 .bf16)
    (bm : Vec Ideal S1x1024x16 .bf16) (am : Vec Ideal S1x16x1024 .bf16) (bv : Vec Ideal S1x1024 .f32)
    (p q : Fin 1024) :
    layerV (F := Ideal) x a wh wl bm am bv (ix2 p q)
      = kerEntry (fun k : Fin 1024 => x (ix2 p k)) (a (ix2 p (0 : Fin 1)))
          (fun k : Fin 1024 => wh (ix3 (0 : Fin 1) k q)) (fun k : Fin 1024 => wl (ix3 (0 : Fin 1) k q))
          (fun (r : Fin 16) (k : Fin 1024) => bm (ix3 (0 : Fin 1) k r)) (fun r : Fin 16 => am (ix3 (0 : Fin 1) r q))
          (bv (ix2 (0 : Fin 1) q)) := by
  unfold layerV kerEntry
  simp only [addf_apply]
  rw [RowsByCols.matmul_zero_apply _ isA, RowsByCols.matmul_zero_apply _ isA, RowsByCols.matmul_zero_apply _ isA,
    RowsByCols.matmul_zero_apply _ isC]
  simp only [truncf_apply, subf_apply, mulf_apply, RowsByCols.matmul_zero_apply _ isB,
    shapeCast_1ab_ab_apply, LibColumnLayout.broadcastTo_a1_ab_apply, broadcastTo_1b_ab_apply,
    shapeCast_self, shapeCast_shapeCast]

end Cert.LoraChain

end
-- ==== Proof.LibSliceRead.lean ====
/-
  A unit-stride rectangle of a matrix, read at a pair of coordinates.

  For an [R, C] array X of any element type, the [r, c] rectangle with unit strides at offsets (o₀, o₁) reads, at its
  local index (p, q), the array at (o₀ + p, o₁ + q). The offsets may be given by any function that is known to equal
  the pair (a chain of integer operations with a proved closed form, say).
-/
import Idealize.ShloMosaic.Lib.Pipeline.Value
import Idealize.ShloMosaic.Lib.ValueIdx

noncomputable section

namespace Cert.SliceRead

open Idealize.ShloMosaic Idealize.ShloMosaic.ValueIdx

/-- The [r, c] unit-stride rectangle at offsets (o₀, o₁) of an [R, C] array, at local (p, q), is the array at
    (o₀ + p, o₁ + q). -/
theorem ld_unit2 {Val : EltTy → Type} {e : EltTy} {R C r c : Nat} (X : (⟨2, ![R, C]⟩ : Shape).Idx → Val e)
    (off : Fin 2 → Nat) (o0 o1 : Nat) (hoff : off = ![o0, o1])
    (inb : ∀ a, off a + (![r, c] : Fin 2 → Nat) a ≤ (⟨2, ![R, C]⟩ : Shape).size a)
    (p : Fin r) (q : Fin c) (h0 : o0 + p.val < R) (h1 : o1 + q.val < C) :
    View.ld X (Rect.unit (s := ⟨2, ![R, C]⟩) off ![r, c] inb) (ix2 p q)
      = X (ix2 ⟨o0 + p.val, h0⟩ ⟨o1 + q.val, h1⟩) := by
  subst hoff
  show X ((Rect.unit (s := ⟨2, ![R, C]⟩) ![o0, o1] ![r, c] inb).idx (ix2 p q)) = _
  refine congrArg X (funext fun a => Fin.ext ?_)
  match a with
  | ⟨0, _⟩ => show o0 + 1 * p.val = o0 + p.val; omega
  | ⟨1, _⟩ => show o1 + 1 * q.val = o1 + q.val; omega

end Cert.SliceRead

end
-- ==== Proof.LibSliceRead3.lean ====
/-
  A unit-stride box of a rank-3 array, read at a triple of coordinates.

  For an [L, R, C] array X of any element type, the [l, r, c] box with unit strides at offsets (o₀, o₁, o₂) reads, at
  its local index (u, p, q), the array at (o₀ + u, o₁ + p, o₂ + q). With l = 1 this is one matrix of a stack of
  matrices. The offsets may be given by any function known to equal the triple. No proof enumerates an extent.
-/
import Idealize.ShloMosaic.Lib.Pipeline.Value
import Idealize.ShloMosaic.Lib.ValueIdx

noncomputable section

namespace Cert.SliceRead3

open Idealize.ShloMosaic Idealize.ShloMosaic.ValueIdx

/-- The [l, r, c] unit-stride box at offsets (o₀, o₁, o₂) of an [L, R, C] array, at local (u, p, q), is the array at
    (o₀ + u, o₁ + p, o₂ + q). -/
theorem ld_unit3 {Val : EltTy → Type} {e : EltTy} {L R C l r c : Nat} (X : (⟨3, ![L, R, C]⟩ : Shape).Idx → Val e)
    (off : Fin 3 → Nat) (o0 o1 o2 : Nat) (hoff : off = ![o0, o1, o2])
    (inb : ∀ a, off a + (![l, r, c] : Fin 3 → Nat) a ≤ (⟨3, ![L, R, C]⟩ : Shape).size a)
    (u : Fin l) (p : Fin r) (q : Fin c) (h0 : o0 + u.val < L) (h1 : o1 + p.val < R) (h2 : o2 + q.val < C) :
    View.ld X (Rect.unit (s := ⟨3, ![L, R, C]⟩) off ![l, r, c] inb) (ix3 u p q)
      = X (ix3 ⟨o0 + u.val, h0⟩ ⟨o1 + p.val, h1⟩ ⟨o2 + q.val, h2⟩) := by
  subst hoff
  show X ((Rect.unit (s := ⟨3, ![L, R, C]⟩) ![o0, o1, o2] ![l, r, c] inb).idx (ix3 u p q)) = _
  refine congrArg X (funext fun a => Fin.ext ?_)
  match a with
  | ⟨0, _⟩ => show o0 + 1 * u.val = o0 + u.val; omega
  | ⟨1, _⟩ => show o1 + 1 * p.val = o1 + p.val; omega
  | ⟨2, _⟩ => show o2 + 1 * q.val = o2 + q.val; omega

end Cert.SliceRead3

end
-- ==== Proof.KerChain.lean ====
/-
  The body's result on one block of rows, read at an entry, on real inputs.

  The body loads the block of seed rows whole, column l of the block of modulation scalars for layer l, and matrix l of
  each stack of resident weights, and applies the layer pattern four times. When the blocks hold real numbers — the seed
  block X, the scalars al, the transposed dense weights W (first piece) and W − W (second piece), the transposed
  projections B and A, the biases — every layer's value is the real layer of the previous one, so the result at (p, q)
  is the four-layer chain of row p at column q.
-/
import proofs.«143806_j2216203125290_2_alg».proof.Proof.Gen.KernelIdeal.Frame
import proofs.«143806_j2216203125290_2_alg».proof.Proof.KerLayer
import proofs.«143806_j2216203125290_2_alg».proof.Proof.ChainSpec
import proofs.«143806_j2216203125290_2_alg».proof.Proof.LibSliceRead
import proofs.«143806_j2216203125290_2_alg».proof.Proof.LibSliceRead3

noncomputable section

namespace Cert.LoraChain

open Idealize.ShloMosaic Idealize.ShloMosaic.ValueIdx Cert.KernelIdeal Cert.KernelIdeal.Gen

/-- Column o of a [1024, 4] block, loaded as a [1024, 1] column. -/
theorem ld_col (x1 : Vec Ideal S1024x4 .f32) (o : Nat) (ho : o < 4)
    (inb : ∀ a, (![0, o] : Fin 2 → Nat) a + S1024x1.size a ≤ S1024x4.size a) (p : Fin 1024) :
    View.ld x1 (Rect.unit (s := S1024x4) ![0, o] S1024x1.size inb) (ix2 p (0 : Fin 1)) = x1 (ix2 p ⟨o, ho⟩) :=
  (SliceRead.ld_unit2 (Val := Elt Ideal) (e := .f32) (R := 1024) (C := 4) (r := 1024) (c := 1) x1 ![0, o] 0 o rfl inb p
      (0 : Fin 1) (by have := p.isLt; omega) (by show o + 0 < 4; omega)).trans
    (congrArg x1 (funext fun a => by
      match a with
      | ⟨0, _⟩ => exact Fin.ext (Nat.zero_add _)
      | ⟨1, _⟩ => exact Fin.ext (Nat.add_zero _)))

/-- Row o of a [4, 1024] array, loaded as a [1, 1024] row. -/
theorem ld_row (x6 : Vec Ideal S4x1024 .f32) (o : Nat) (ho : o < 4)
    (inb : ∀ a, (![o, 0] : Fin 2 → Nat) a + S1x1024.size a ≤ S4x1024.size a) (q : Fin 1024) :
    View.ld x6 (Rect.unit (s := S4x1024) ![o, 0] S1x1024.size inb) (ix2 (0 : Fin 1) q) = x6 (ix2 ⟨o, ho⟩ q) :=
  (SliceRead.ld_unit2 (Val := Elt Ideal) (e := .f32) (R := 4) (C := 1024) (r := 1) (c := 1024) x6 ![o, 0] o 0 rfl inb
      (0 : Fin 1) q (by show o + 0 < 4; omega) (by have := q.isLt; omega)).trans
    (congrArg x6 (funext fun a => by
      match a with
      | ⟨0, _⟩ => exact Fin.ext (Nat.add_zero _)
      | ⟨1, _⟩ => exact Fin.ext (Nat.zero_add _)))

/-- Matrix o of a stack of four [R, C] matrices, loaded as a [1, R, C] box. -/
theorem ld_mat {R C : Nat} {e : EltTy} (x : (⟨3, ![4, R, C]⟩ : Shape).Idx → Elt Ideal e) (o : Nat) (ho : o < 4)
    (inb : ∀ a, (![o, 0, 0] : Fin 3 → Nat) a + (![1, R, C] : Fin 3 → Nat) a ≤ (⟨3, ![4, R, C]⟩ : Shape).size a)
    (p : Fin R) (q : Fin C) :
    View.ld x (Rect.unit (s := ⟨3, ![4, R, C]⟩) ![o, 0, 0] ![1, R, C] inb) (ix3 (0 : Fin 1) p q) = x (ix3 ⟨o, ho⟩ p q) :=
  (SliceRead3.ld_unit3 (Val := Elt Ideal) (e := e) x ![o, 0, 0] o 0 0 rfl inb (0 : Fin 1) p q
      (by show o + 0 < 4; omega) (by have := p.isLt; omega) (by have := q.isLt; omega)).trans
    (congrArg x (funext fun a => by
      match a with
      | ⟨0, _⟩ => exact Fin.ext (Nat.add_zero _)
      | ⟨1, _⟩ => exact Fin.ext (Nat.zero_add _)
      | ⟨2, _⟩ => exact Fin.ext (Nat.zero_add _)))

theorem hz2 : (![0, 0] : Fin 2 → Nat) = fun _ => 0 := funext fun a => by fin_cases a <;> rfl

section Block

variable (x0 : Vec Ideal S1024x1024 .f32) (x1 : Vec Ideal S1024x4 .f32) (x2 x3 : Vec Ideal S4x1024x1024 .bf16)
  (x4 : Vec Ideal S4x1024x16 .bf16) (x5 : Vec Ideal S4x16x1024 .bf16) (x6 : Vec Ideal S4x1024 .f32)
  (X : Fin 1024 → Fin 1024 → ℝ) (al : Fin 1024 → Fin 4 → ℝ) (W : Fin 4 → Fin 1024 → Fin 1024 → ℝ)
  (A : Fin 4 → Fin 1024 → Fin 16 → ℝ) (B : Fin 4 → Fin 16 → Fin 1024 → ℝ) (bias : Fin 4 → Fin 1024 → ℝ)

/-- One layer of real inputs is the real layer. -/
theorem layerV_real (l : Fin 4) (Y : FVec Ideal S1024x1024 .f32) (Yr : Fin 1024 → Fin 1024 → ℝ)
    (a : Vec Ideal S1024x1 .f32) (wh wl : Vec Ideal S1x1024x1024 .bf16) (bm : Vec Ideal S1x1024x16 .bf16)
    (am : Vec Ideal S1x16x1024 .bf16) (bv : Vec Ideal S1x1024 .f32)
    (hY : ∀ p k, Y (ix2 p k) = ((Yr p k : ℝ) : EReal))
    (ha : ∀ p, a (ix2 p (0 : Fin 1)) = ((al p l : ℝ) : EReal))
    (hwh : ∀ k n, wh (ix3 (0 : Fin 1) k n) = ((W l n k : ℝ) : EReal))
    (hwl : ∀ k n, wl (ix3 (0 : Fin 1) k n) = ((W l n k : ℝ) : EReal) - ((W l n k : ℝ) : EReal))
    (hbm : ∀ k r, bm (ix3 (0 : Fin 1) k r) = ((B l r k : ℝ) : EReal))
    (ham : ∀ r n, am (ix3 (0 : Fin 1) r n) = ((A l n r : ℝ) : EReal))
    (hbv : ∀ n, bv (ix2 (0 : Fin 1) n) = ((bias l n : ℝ) : EReal)) (p q : Fin 1024) :
    layerV (F := Ideal) Y a wh wl bm am bv (ix2 p q)
      = ((layerR (fun b => al b l) (W l) (A l) (B l) (bias l) Yr p q : ℝ) : EReal) := by
  rw [layerV_entry]
  simp only [hY, ha, hwh, hwl, hbm, ham, hbv]
  exact kerEntry_coe (Yr p) (al p l) (W l q) (B l) (A l q) (bias l q)

variable (h0 : ∀ p k, x0 (ix2 p k) = ((X p k : ℝ) : EReal))
  (h1 : ∀ p l, x1 (ix2 p l) = ((al p l : ℝ) : EReal))
  (h2 : ∀ l k n, x2 (ix3 l k n) = ((W l n k : ℝ) : EReal))
  (h3 : ∀ l k n, x3 (ix3 l k n) = ((W l n k : ℝ) : EReal) - ((W l n k : ℝ) : EReal))
  (h4 : ∀ l k r, x4 (ix3 l k r) = ((B l r k : ℝ) : EReal))
  (h5 : ∀ l r n, x5 (ix3 l r n) = ((A l n r : ℝ) : EReal))
  (h6 : ∀ l n, x6 (ix2 l n) = ((bias l n : ℝ) : EReal))

include h0 h1 h2 h3 h4 h5 h6 in
/-- The four layers of the body on a block of real inputs: the chain of each row. -/
theorem chain_block (p q : Fin 1024) :
    layerV (F := Ideal)
      (layerV (F := Ideal)
        (layerV (F := Ideal)
          (layerV (F := Ideal) (View.ld x0 r0_0) (View.ld x1 r0_1) (View.ld x2 r0_2) (View.ld x3 r0_2) (View.ld x4 r0_3)
            (View.ld x5 r0_4) (View.ld x6 r0_5))
          (View.ld x1 r0_6) (View.ld x2 r0_7) (View.ld x3 r0_7) (View.ld x4 r0_8) (View.ld x5 r0_9) (View.ld x6 r0_10))
        (View.ld x1 r0_11) (View.ld x2 r0_12) (View.ld x3 r0_12) (View.ld x4 r0_13) (View.ld x5 r0_14) (View.ld x6 r0_15))
      (View.ld x1 r0_16) (View.ld x2 r0_17) (View.ld x3 r0_17) (View.ld x4 r0_18) (View.ld x5 r0_19) (View.ld x6 r0_20)
      (ix2 p q)
      = ((chainR X al W A B bias p q : ℝ) : EReal) := by
  have L0 := layerV_real al W A B bias 0 (View.ld x0 r0_0) X (View.ld x1 r0_1) (View.ld x2 r0_2) (View.ld x3 r0_2)
    (View.ld x4 r0_3) (View.ld x5 r0_4) (View.ld x6 r0_5)
    (fun p k => by rw [View.ld_unit_zero (S := S1024x1024) hz2]; exact h0 p k)
    (fun p => (ld_col x1 0 (by decide) _ p).trans (h1 p 0))
    (fun k n => (ld_mat x2 0 (by decide) _ k n).trans (h2 0 k n))
    (fun k n => (ld_mat x3 0 (by decide) _ k n).trans (h3 0 k n))
    (fun k r => (ld_mat x4 0 (by decide) _ k r).trans (h4 0 k r))
    (fun r n => (ld_mat x5 0 (by decide) _ r n).trans (h5 0 r n))
    (fun n => (ld_row x6 0 (by decide) _ n).trans (h6 0 n))
  have L1 := layerV_real al W A B bias 1 _ _ (View.ld x1 r0_6) (View.ld x2 r0_7) (View.ld x3 r0_7)
    (View.ld x4 r0_8) (View.ld x5 r0_9) (View.ld x6 r0_10) L0
    (fun p => (ld_col x1 1 (by decide) _ p).trans (h1 p 1))
    (fun k n => (ld_mat x2 1 (by decide) _ k n).trans (h2 1 k n))
    (fun k n => (ld_mat x3 1 (by decide) _ k n).trans (h3 1 k n))
    (fun k r => (ld_mat x4 1 (by decide) _ k r).trans (h4 1 k r))
    (fun r n => (ld_mat x5 1 (by decide) _ r n).trans (h5 1 r n))
    (fun n => (ld_row x6 1 (by decide) _ n).trans (h6 1 n))
  have L2 := layerV_real al W A B bias 2 _ _ (View.ld x1 r0_11) (View.ld x2 r0_12) (View.ld x3 r0_12)
    (View.ld x4 r0_13) (View.ld x5 r0_14) (View.ld x6 r0_15) L1
    (fun p => (ld_col x1 2 (by decide) _ p).trans (h1 p 2))
    (fun k n => (ld_mat x2 2 (by decide) _ k n).trans (h2 2 k n))
    (fun k n => (ld_mat x3 2 (by decide) _ k n).trans (h3 2 k n))
    (fun k r => (ld_mat x4 2 (by decide) _ k r).trans (h4 2 k r))
    (fun r n => (ld_mat x5 2 (by decide) _ r n).trans (h5 2 r n))
    (fun n => (ld_row x6 2 (by decide) _ n).trans (h6 2 n))
  exact layerV_real al W A B bias 3 _ _ (View.ld x1 r0_16) (View.ld x2 r0_17) (View.ld x3 r0_17)
    (View.ld x4 r0_18) (View.ld x5 r0_19) (View.ld x6 r0_20) L2
    (fun p => (ld_col x1 3 (by decide) _ p).trans (h1 p 3))
    (fun k n => (ld_mat x2 3 (by decide) _ k n).trans (h2 3 k n))
    (fun k n => (ld_mat x3 3 (by decide) _ k n).trans (h3 3 k n))
    (fun k r => (ld_mat x4 3 (by decide) _ k r).trans (h4 3 k r))
    (fun r n => (ld_mat x5 3 (by decide) _ r n).trans (h5 3 r n))
    (fun n => (ld_row x6 3 (by decide) _ n).trans (h6 3 n)) p q

end Block

end Cert.LoraChain

end
-- ==== Proof.KerValue.lean ====
/-
  The kernel's result array is the chain, on real inputs.

  The region's eight grid points each take a block of 1024 consecutive batch rows: point t stages rows
  1024·t … 1024·t + 1023 of the seed and of the modulation scalars, the five resident weight arrays whole, and writes
  back rows 1024·t … of the result. Before the region the host transposes the stacked weights (swapping the last two
  axes) and forms the second dense piece as the transposed weight minus itself, every change of float format being
  the identity over the extended reals. So at point t the body's blocks are, entry by entry, the argument arrays
  re-indexed; on real arguments they are coercions of reals, the body's result is the chain of the block's rows
  (KerChain), and that is block t of the array `G`. The eight blocks cover the result array: row i lies in block i / 1024.
-/
import proofs.«143806_j2216203125290_2_alg».proof.Proof.Gen.KernelIdeal.Value
import proofs.«143806_j2216203125290_2_alg».proof.Proof.Gen.ReferenceIdeal.Read
import proofs.«143806_j2216203125290_2_alg».proof.Proof.KerChain
import Idealize.ShloMosaic.Lib.StableHlo.Run
import Idealize.ShloMosaic.Lib.ValueLayout
import Idealize.ShloMosaic.Lib.Pipeline.Value

set_option maxRecDepth 16384

noncomputable section

namespace Cert.LoraChain.Ker

open Idealize.ShloMosaic Idealize.ShloMosaic.TcCoe Idealize.SL.Sem Idealize.ShloMosaic.ValueIdx
open Cert.KernelIdeal Cert.KernelIdeal.Gen Cert.KernelIdeal.Value Cert.LoraChain
open Idealize.ShloMosaic.Pipeline (Dat)

variable (m : (ℓ : Loc nD τ sig) → Buf (Elt Ideal) ℓ) (ρ : Dev nD → PrngReg)

/-! ## The arrays the region finds, as functions of the arguments -/

/-- The argument arrays the chain reads, and the arrays the host operations before the region leave, at their shapes. -/
abbrev seedA (c : Dev nD) : S8192x1024.Idx → EReal := m ((c : Thread nD τ).loc main_arg0)
abbrev denseA (c : Dev nD) : S4x1024x1024.Idx → EReal := m ((c : Thread nD τ).loc main_arg3)
abbrev upA (c : Dev nD) : S4x1024x16.Idx → EReal := m ((c : Thread nD τ).loc main_arg4)
abbrev downA (c : Dev nD) : S4x16x1024.Idx → EReal := m ((c : Thread nD τ).loc main_arg5)
abbrev biasA (c : Dev nD) : S4x1024.Idx → EReal := m ((c : Thread nD τ).loc main_arg6)
abbrev scalV (c : Dev nD) : S8192x4.Idx → EReal := V m c main_v6
abbrev whV (c : Dev nD) : S4x1024x1024.Idx → EReal := V m c main_v8
abbrev wlV (c : Dev nD) : S4x1024x1024.Idx → EReal := V m c main_v11
abbrev bmV (c : Dev nD) : S4x1024x16.Idx → EReal := V m c main_v13
abbrev amV (c : Dev nD) : S4x16x1024.Idx → EReal := V m c main_v15

/-- The modulation scalars: the same operations, of the same arguments, as the reference's. -/
theorem V_scal (c : Dev nD) : scalV m c
    = Cert.ReferenceIdeal.Read.val_main_v6 (F := Ideal) (m ((c : Thread nD τ).loc main_arg1))
        (m ((c : Thread nD τ).loc main_arg2)) (m ((c : Thread nD τ).loc main_arg7)) (m ((c : Thread nD τ).loc main_arg8)) := by
  dsimp only [scalV, Gen.V, Gen.hostOps0]; after_results; rfl

/-- The first dense piece: the stacked dense weights with the last two axes swapped. -/
theorem V_wh (c : Dev nD) : whV m c
    = truncf (F := Ideal) .bf16 (transpose S4x1024x1024 [0, 2, 1] (denseA m c)
        transposes_S4x1024x1024_S4x1024x1024_0_2_1) bitsLt_bf16_f32 := by
  dsimp only [whV, denseA, Gen.V, Gen.hostOps0]; after_results

/-- The second dense piece: the swapped weights minus themselves. -/
theorem V_wl (c : Dev nD) : wlV m c
    = truncf (F := Ideal) .bf16
        (subf (transpose S4x1024x1024 [0, 2, 1] (denseA m c) transposes_S4x1024x1024_S4x1024x1024_0_2_1)
          (extf (F := Ideal) .f32 (truncf (F := Ideal) .bf16 (transpose S4x1024x1024 [0, 2, 1] (denseA m c)
            transposes_S4x1024x1024_S4x1024x1024_0_2_1) bitsLt_bf16_f32) bitsLt_bf16_f32)) bitsLt_bf16_f32 := by
  dsimp only [wlV, denseA, Gen.V, Gen.hostOps0]; after_results

/-- The down-projections with the last two axes swapped. -/
theorem V_bm (c : Dev nD) : bmV m c
    = truncf (F := Ideal) .bf16 (transpose S4x1024x16 [0, 2, 1] (downA m c)
        transposes_S4x16x1024_S4x1024x16_0_2_1) bitsLt_bf16_f32 := by
  dsimp only [bmV, downA, Gen.V, Gen.hostOps0]; after_results

/-- The up-projections with the last two axes swapped. -/
theorem V_am (c : Dev nD) : amV m c
    = truncf (F := Ideal) .bf16 (transpose S4x16x1024 [0, 2, 1] (upA m c)
        transposes_S4x1024x16_S4x16x1024_0_2_1) bitsLt_bf16_f32 := by
  dsimp only [amV, upA, Gen.V, Gen.hostOps0]; after_results

theorem V_wh_apply (c : Dev nD) (l : Fin 4) (k n : Fin 1024) : whV m c (ix3 l k n) = denseA m c (ix3 l n k) := by
  rw [V_wh]; exact transpose_ix3_021_apply _ _ l k n

theorem V_wl_apply (c : Dev nD) (l : Fin 4) (k n : Fin 1024) :
    wlV m c (ix3 l k n) = denseA m c (ix3 l n k) - denseA m c (ix3 l n k) := by
  rw [V_wl]
  show transpose S4x1024x1024 [0, 2, 1] (denseA m c) _ (ix3 l k n)
    - transpose S4x1024x1024 [0, 2, 1] (denseA m c) _ (ix3 l k n) = _
  rw [transpose_ix3_021_apply _ _ l k n]

theorem V_bm_apply (c : Dev nD) (l : Fin 4) (k : Fin 1024) (r : Fin 16) : bmV m c (ix3 l k r) = downA m c (ix3 l r k) := by
  rw [V_bm]; exact transpose_ix3_021_apply _ _ l k r

theorem V_am_apply (c : Dev nD) (l : Fin 4) (r : Fin 16) (n : Fin 1024) : amV m c (ix3 l r n) = upA m c (ix3 l n r) := by
  rw [V_am]; exact transpose_ix3_021_apply _ _ l r n

/-! ## The windows' blocks at a point -/

/-- The printed index maps, decided over the grid: the seed, the scalars and the result move one block of rows per
    point; the five weight arrays stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ (∀ a : Fin 3, win0_2.index t a = 0) ∧ (∀ a : Fin 3, win0_3.index t a = 0)
    ∧ (∀ a : Fin 3, win0_4.index t a = 0) ∧ (∀ a : Fin 3, win0_5.index t a = 0)
    ∧ (∀ a : Fin 2, win0_6.index t a = 0)
    ∧ win0_7.index t (0 : Fin 2) = t.val ∧ win0_7.index t (1 : Fin 2) = 0 :=
  (by decide +kernel : ∀ t : Fin grid0.N, _)

/-- Row p of block t is batch row 1024·t + p. -/
def row (t : Fin cfg0.N) (p : Fin 1024) : Fin 8192 :=
  ⟨t.val * 1024 + p.val, by have h := t.isLt; have h8 : cfg0.N = 8 := N_0; have := p.isLt; omega⟩

theorem iblk0_apply (c : Dev nD) (t : Fin cfg0.N) (p k : Fin 1024) :
    iblk m c 0 t (ix2 p k) = seedA m c (ix2 (row t p) k) := by
  show V m c main_arg0 (((cfg0.win 0).blk t).view.emb (ix2 p k)) = _
  rw [V_main_arg0]
  refine congrArg _ (funext fun a => Fin.ext ?_)
  obtain ⟨e0, e1, -⟩ := idx_facts t
  match a with
  | ⟨0, _⟩ => show win0_0.index t (0 : Fin 2) * 1024 + 1 * p.val = t.val * 1024 + p.val; rw [e0]; omega
  | ⟨1, _⟩ => show win0_0.index t (1 : Fin 2) * 1024 + 1 * k.val = k.val; rw [e1]; omega

theorem iblk1_apply (c : Dev nD) (t : Fin cfg0.N) (p : Fin 1024) (l : Fin 4) :
    iblk m c 1 t (ix2 p l) = scalV m c (ix2 (row t p) l) := by
  show V m c main_v6 (((cfg0.win 1).blk t).view.emb (ix2 p l)) = _
  refine congrArg _ (funext fun a => Fin.ext ?_)
  obtain ⟨-, -, e0, e1, -⟩ := idx_facts t
  match a with
  | ⟨0, _⟩ => show win0_1.index t (0 : Fin 2) * 1024 + 1 * p.val = t.val * 1024 + p.val; rw [e0]; omega
  | ⟨1, _⟩ => show win0_1.index t (1 : Fin 2) * 4 + 1 * l.val = l.val; rw [e1]; omega

theorem iblk2_apply (c : Dev nD) (t : Fin cfg0.N) (l : Fin 4) (k n : Fin 1024) :
    iblk m c 2 t (ix3 l k n) = whV m c (ix3 l k n) := by
  show V m c main_v8 (((cfg0.win 2).blk t).view.emb (ix3 l k n)) = _
  refine congrArg _ (funext fun a => Fin.ext ?_)
  have e := (idx_facts t).2.2.2.2.1
  match a with
  | ⟨0, _⟩ => show win0_2.index t (0 : Fin 3) * 4 + 1 * l.val = l.val; rw [e]; omega
  | ⟨1, _⟩ => show win0_2.index t (1 : Fin 3) * 1024 + 1 * k.val = k.val; rw [e]; omega
  | ⟨2, _⟩ => show win0_2.index t (2 : Fin 3) * 1024 + 1 * n.val = n.val; rw [e]; omega

theorem iblk3_apply (c : Dev nD) (t : Fin cfg0.N) (l : Fin 4) (k n : Fin 1024) :
    iblk m c 3 t (ix3 l k n) = wlV m c (ix3 l k n) := by
  show V m c main_v11 (((cfg0.win 3).blk t).view.emb (ix3 l k n)) = _
  refine congrArg _ (funext fun a => Fin.ext ?_)
  have e := (idx_facts t).2.2.2.2.2.1
  match a with
  | ⟨0, _⟩ => show win0_3.index t (0 : Fin 3) * 4 + 1 * l.val = l.val; rw [e]; omega
  | ⟨1, _⟩ => show win0_3.index t (1 : Fin 3) * 1024 + 1 * k.val = k.val; rw [e]; omega
  | ⟨2, _⟩ => show win0_3.index t (2 : Fin 3) * 1024 + 1 * n.val = n.val; rw [e]; omega

theorem iblk4_apply (c : Dev nD) (t : Fin cfg0.N) (l : Fin 4) (k : Fin 1024) (r : Fin 16) :
    iblk m c 4 t (ix3 l k r) = bmV m c (ix3 l k r) := by
  show V m c main_v13 (((cfg0.win 4).blk t).view.emb (ix3 l k r)) = _
  refine congrArg _ (funext fun a => Fin.ext ?_)
  have e := (idx_facts t).2.2.2.2.2.2.1
  match a with
  | ⟨0, _⟩ => show win0_4.index t (0 : Fin 3) * 4 + 1 * l.val = l.val; rw [e]; omega
  | ⟨1, _⟩ => show win0_4.index t (1 : Fin 3) * 1024 + 1 * k.val = k.val; rw [e]; omega
  | ⟨2, _⟩ => show win0_4.index t (2 : Fin 3) * 16 + 1 * r.val = r.val; rw [e]; omega

theorem iblk5_apply (c : Dev nD) (t : Fin cfg0.N) (l : Fin 4) (r : Fin 16) (n : Fin 1024) :
    iblk m c 5 t (ix3 l r n) = amV m c (ix3 l r n) := by
  show V m c main_v15 (((cfg0.win 5).blk t).view.emb (ix3 l r n)) = _
  refine congrArg _ (funext fun a => Fin.ext ?_)
  have e := (idx_facts t).2.2.2.2.2.2.2.1
  match a with
  | ⟨0, _⟩ => show win0_5.index t (0 : Fin 3) * 4 + 1 * l.val = l.val; rw [e]; omega
  | ⟨1, _⟩ => show win0_5.index t (1 : Fin 3) * 16 + 1 * r.val = r.val; rw [e]; omega
  | ⟨2, _⟩ => show win0_5.index t (2 : Fin 3) * 1024 + 1 * n.val = n.val; rw [e]; omega

theorem iblk6_apply (c : Dev nD) (t : Fin cfg0.N) (l : Fin 4) (n : Fin 1024) :
    iblk m c 6 t (ix2 l n) = biasA m c (ix2 l n) := by
  show V m c main_arg6 (((cfg0.win 6).blk t).view.emb (ix2 l n)) = _
  rw [V_main_arg6]
  refine congrArg _ (funext fun a => Fin.ext ?_)
  have e := (idx_facts t).2.2.2.2.2.2.2.2.1
  match a with
  | ⟨0, _⟩ => show win0_6.index t (0 : Fin 2) * 4 + 1 * l.val = l.val; rw [e]; omega
  | ⟨1, _⟩ => show win0_6.index t (1 : Fin 2) * 1024 + 1 * n.val = n.val; rw [e]; omega

/-! ## What a point writes back, the cover, and the run -/

/-- The arguments the chain reads, all real numbers. -/
structure RealArgs (c : Dev nD) : Prop where
  seed : ∀ i, IsR (seedA m c i)
  scal : ∀ i, IsR (scalV m c i)
  dense : ∀ i, IsR (denseA m c i)
  up : ∀ i, IsR (upA m c i)
  down : ∀ i, IsR (downA m c i)
  bias : ∀ i, IsR (biasA m c i)

/-- The result array the kernel ends at. -/
abbrev result (c : Dev nD) : S8192x1024.Idx → EReal :=
  G (seedA m c) (scalV m c) (denseA m c) (upA m c) (downA m c) (biasA m c)

/-- What point t writes back is block t of the chain's array. -/
theorem flushed_eq (c : Dev nD) (hr : RealArgs m c) (t : Fin cfg0.N) :
    (dats m 0 c).flushed 7 t = ((cfg0.win 7).blk t).view.read (Elt Ideal) (result m c) := by
  rw [flushed7]
  unfold out0_7
  rw [View.canon_unit_zero hz2]
  funext y
  obtain ⟨p, q, rfl⟩ : ∃ (p q : Fin 1024), y = ix2 p q := ⟨y 0, y 1, eq_ix2 y⟩
  have he : ((cfg0.win 7).blk t).view.emb (ix2 p q) = (ix2 (row t p) q : S8192x1024.Idx) := by
    refine funext fun a => Fin.ext ?_
    obtain ⟨-, -, -, -, -, -, -, -, -, e0, e1⟩ := idx_facts t
    match a with
    | ⟨0, _⟩ => show win0_7.index t (0 : Fin 2) * 1024 + 1 * p.val = t.val * 1024 + p.val; rw [e0]; omega
    | ⟨1, _⟩ => show win0_7.index t (1 : Fin 2) * 1024 + 1 * q.val = q.val; rw [e1]; omega
  show layerV (F := Ideal)
      (layerV (F := Ideal)
        (layerV (F := Ideal)
          (layerV (F := Ideal) (View.ld (iblk m c 0 t) r0_0) (View.ld (iblk m c 1 t) r0_1) (View.ld (iblk m c 2 t) r0_2)
            (View.ld (iblk m c 3 t) r0_2) (View.ld (iblk m c 4 t) r0_3) (View.ld (iblk m c 5 t) r0_4)
            (View.ld (iblk m c 6 t) r0_5))
          (View.ld (iblk m c 1 t) r0_6) (View.ld (iblk m c 2 t) r0_7) (View.ld (iblk m c 3 t) r0_7)
          (View.ld (iblk m c 4 t) r0_8) (View.ld (iblk m c 5 t) r0_9) (View.ld (iblk m c 6 t) r0_10))
        (View.ld (iblk m c 1 t) r0_11) (View.ld (iblk m c 2 t) r0_12) (View.ld (iblk m c 3 t) r0_12)
        (View.ld (iblk m c 4 t) r0_13) (View.ld (iblk m c 5 t) r0_14) (View.ld (iblk m c 6 t) r0_15))
      (View.ld (iblk m c 1 t) r0_16) (View.ld (iblk m c 2 t) r0_17) (View.ld (iblk m c 3 t) r0_17)
      (View.ld (iblk m c 4 t) r0_18) (View.ld (iblk m c 5 t) r0_19) (View.ld (iblk m c 6 t) r0_20) (ix2 p q)
    = result m c (((cfg0.win 7).blk t).view.emb (ix2 p q))
  rw [he]
  exact chain_block (iblk m c 0 t) (iblk m c 1 t) (iblk m c 2 t) (iblk m c 3 t) (iblk m c 4 t) (iblk m c 5 t)
    (iblk m c 6 t)
    (fun p k => seedR (seedA m c) (row t p) k)
    (fun p l => scalR (scalV m c) (row t p) l)
    (denseR (denseA m c)) (upR (upA m c)) (downR (downA m c)) (biasR (biasA m c))
    (fun p k => (iblk0_apply m c t p k).trans (hr.seed _).coe_toReal)
    (fun p l => (iblk1_apply m c t p l).trans (hr.scal _).coe_toReal)
    (fun l k n => (iblk2_apply m c t l k n).trans ((V_wh_apply m c l k n).trans (hr.dense _).coe_toReal))
    (fun l k n => (iblk3_apply m c t l k n).trans ((V_wl_apply m c l k n).trans
      (congrArg₂ (· - ·) (hr.dense _).coe_toReal (hr.dense _).coe_toReal)))
    (fun l k r => (iblk4_apply m c t l k r).trans ((V_bm_apply m c l k r).trans (hr.down _).coe_toReal))
    (fun l r n => (iblk5_apply m c t l r n).trans ((V_am_apply m c l r n).trans (hr.up _).coe_toReal))
    (fun l n => (iblk6_apply m c t l n).trans (hr.bias _).coe_toReal) p q

/-- An index of the result array is in point t's block iff each coordinate is in the block's range on its axis. -/
theorem mem_blk7 (t : Fin cfg0.N) (i : S8192x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v16).slice (win0_7.rect t)).set ↔ _
  rw [View.set_slice_whole, Rect.mem_set_unit]
  exact Iff.rfl

/-- Every entry of the result array is written by the point of its block of rows. -/
theorem cover (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have h8 : cfg0.N = 8 := N_0
  refine ⟨⟨(i 0).val / 1024, by omega⟩, flush0_7 _, ?_⟩
  rw [mem_blk7]
  obtain ⟨-, -, -, -, -, -, -, -, -, e0, e1⟩ := idx_facts ⟨(i 0).val / 1024, by omega⟩
  intro a
  match a with
  | ⟨0, _⟩ =>
    show win0_7.index ⟨(i 0).val / 1024, _⟩ (0 : Fin 2) * 1024 ≤ (i 0).val
      ∧ (i 0).val < win0_7.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_7.index ⟨(i 0).val / 1024, _⟩ (1 : Fin 2) * 1024 ≤ (i 1).val
      ∧ (i 1).val < win0_7.index ⟨(i 0).val / 1024, _⟩ (1 : Fin 2) * 1024 + 1024
    rw [e1]; omega

/-- The result array after the run is the chain's array. -/
theorem final (c : Dev nD) (hr : RealArgs m c) : (dats m 0 c).arrAt 7 cfg0.N = result m c :=
  (dats m 0 c).arrAt_eq_of_cover 7 (result m c) (fun t _ => flushed_eq m c hr t) cover

/-- The kernel's run on real arguments: the result array ends at the chain's array, the arguments unchanged. -/
theorem run (hr : ∀ c, RealArgs m c) :
    θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hr c)), (h c).2⟩) (run_blocks m ρ)

end Cert.LoraChain.Ker

end
-- ==== Proof.lean ====
/-
  A chain of four modulated dense layers: the tiled kernel against the plain reference, over the extended reals.

  Both programs first compute, for every batch row b, four modulation scalars al b 0 … al b 3 (a small dot product of
  the row's physical parameters and time with the head weights, plus the head bias): the same host operations in
  both. Then, from the seed row X b, layer l sends a row Y b to the row with entries
      Σₖ Y b k · W l n k  +  al b l · Σᵣ (Σₖ Y b k · B l r k) · A l n r  +  bias l n,
  and the result is the fourth layer's value.

  The reference does this on all 8192 rows at once, slicing layer l's matrices out of the stacked weights. The kernel
  takes 1024 rows per grid point, reads pre-transposed weights, and splits the dense product into three products over
  a two-piece splitting of both the activations and the weights; with every change of float format the identity, the
  second pieces are Y − Y and W − W. It also multiplies by the scalar inside the sum over r.

  The two agree when every input is a real number — then every intermediate value is a real number, Y − Y and W − W
  are zero, and the scalar moves across the finite sum — and the precondition says exactly that every input is finite.
  With an infinite input the claim would fail (∞ − ∞ is not 0 over the extended reals), so the precondition is used:
  Finite.lean reads it entry by entry. LayerAlgebra.lean has the arithmetic of one layer at one entry in both
  arrangements; ChainSpec.lean the chain and the result array G; RefLayers.lean and RefValue.lean show the reference
  ends at G; KerLayer.lean, KerChain.lean and KerValue.lean show the kernel's blocks are the blocks of G and cover the
  result array. The frames of the two kernels are the generated ones; the reference's frame is its run with the result
  forgotten. The word-level kernel differs from its idealization only by four roundings through bf16 and back, each
  the identity at the ideal instance.
-/
import proofs.«143806_j2216203125290_2_alg».proof.Defs
import proofs.«143806_j2216203125290_2_alg».proof.Proof.Gen.Kernel
import proofs.«143806_j2216203125290_2_alg».proof.Proof.Gen.Kernel.Skeleton
import proofs.«143806_j2216203125290_2_alg».proof.Proof.Gen.Kernel.Launch
import proofs.«143806_j2216203125290_2_alg».proof.Proof.Gen.Kernel.Points
import proofs.«143806_j2216203125290_2_alg».proof.Proof.Gen.Kernel.Frame
import proofs.«143806_j2216203125290_2_alg».proof.Proof.Gen.KernelIdeal
import proofs.«143806_j2216203125290_2_alg».proof.Proof.Gen.KernelIdeal.Skeleton
import proofs.«143806_j2216203125290_2_alg».proof.Proof.Gen.KernelIdeal.Launch
import proofs.«143806_j2216203125290_2_alg».proof.Proof.Gen.KernelIdeal.Points
import proofs.«143806_j2216203125290_2_alg».proof.Proof.Gen.KernelIdeal.Frame
import proofs.«143806_j2216203125290_2_alg».proof.Proof.Gen.ReferenceIdeal
import proofs.«143806_j2216203125290_2_alg».proof.Proof.Gen.KernelIdeal.Value
import proofs.«143806_j2216203125290_2_alg».proof.Proof.Gen.ReferenceIdeal.Run
import proofs.«143806_j2216203125290_2_alg».proof.Proof.Gen.ReferenceIdeal.Read
import proofs.«143806_j2216203125290_2_alg».proof.Proof.Gen.Pre_finite_inputs
import proofs.«143806_j2216203125290_2_alg».proof.Proof.Finite
import proofs.«143806_j2216203125290_2_alg».proof.Proof.RefValue
import proofs.«143806_j2216203125290_2_alg».proof.Proof.KerValue
import Idealize.ShloMosaic.Adequacy
import Idealize.ShloMosaic.Init

noncomputable section

namespace Cert.Proof

open Idealize.ShloMosaic Idealize.ShloMosaic.TcCoe Idealize.SL.Sem Cert.LoraChain

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The four rewrites of the ideal pass: a rounding through bf16 and back is the identity on extended reals. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- Both idealized programs end at the chain's array of the arguments, which agree. -/
theorem algebraic : Cert.algebraic_KernelIdeal_ReferenceIdeal := by
  intro m ρ m' ρ' hpre hagree
  have hreal : ∀ c : Dev Cert.KernelIdeal.nD, Ker.RealArgs m c := by
    intro c
    obtain ⟨r0, r1, r2, r3, r4, r5, r6, r7, r8⟩ := real_of_pre _ _ _ _ _ _ _ _ _ (hpre c)
    refine ⟨r0, ?_, r3, r4, r5, r6⟩
    intro i
    rw [Ker.V_scal]
    exact Ref.isR_alpha _ _ _ _ r1 r2 r7 r8 i
  refine ⟨fun c => Ker.result m c, Ker.run m ρ hreal, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5, r6, r7, r8⟩ := real_of_pre _ _ _ _ _ _ _ _ _ (hpre c)
  obtain ⟨a0, a1, a2, a3, a4, a5, a6, a7, a8⟩ := hagree c
  rw [Cert.ReferenceIdeal.Read.val_main_v90_eq, a0, a1, a2, a3, a4, a5, a6, a7, a8,
    Ref.ref_value _ _ _ _ _ _ _ _ _ r0 r1 r2 r3 r4 r5 r6 r7 r8]
  show _ = G (Ker.seedA m c) (Ker.scalV m c) (Ker.denseA m c) (Ker.upA m c) (Ker.downA m c) (Ker.biasA m c)
  rw [Ker.V_scal]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
